-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x16 .f32) (main_arg8 : FVec F S16 .f32) (main_arg9 : FVec F S16x1 .f32) (main_arg10 : FVec F S1 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg9
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S64x16 .f32) (main_arg8 : FVec F S16 .f32) (main_arg9 : FVec F S16x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : FVec F S64x16 .f32) (main_arg8 : FVec F S16 .f32) (main_arg9 : FVec F S16x1 .f32) (main_arg10 : FVec F S1 .f32) (main_arg11 : IVec S2x800000 32) (main_arg12 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x16 : Shape := ⟨2, ![1, 16]⟩
abbrev S1x1 : Shape := ⟨2, ![1, 1]⟩

abbrev nBuf : Space → Nat
  | .hbm => 106
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S2x800000, .i32⟩
  | .hbm, ⟨12, _⟩ => ⟨S50000, .i32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S64x128, .f32⟩
  | .hbm, ⟨91, _⟩ => ⟨S50000x1, .i32⟩
  | .hbm, ⟨92, _⟩ => ⟨S64x128, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S64, .f32⟩
  | .hbm, ⟨97, _⟩ => ⟨S50000x1, .i32⟩
  | .hbm, ⟨98, _⟩ => ⟨S64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64x1, .f32⟩
  | .hbm, ⟨103, _⟩ => ⟨S64x128, .f32⟩
  | .hbm, ⟨104, _⟩ => ⟨S64x128, .f32⟩
  | .hbm, ⟨105, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S128x64, .f32⟩
  | .local _ .vmem, ⟨22, _⟩ => ⟨S64, .f32⟩
  | .local _ .vmem, ⟨23, _⟩ => ⟨S64x16, .f32⟩
  | .local _ .vmem, ⟨24, _⟩ => ⟨S16, .f32⟩
  | .local _ .vmem, ⟨25, _⟩ => ⟨S16x1, .f32⟩
  | .local _ .vmem, ⟨26, _⟩ => ⟨S1, .f32⟩
  | .local _ .vmem, ⟨27, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc4_stg7_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x16.size a ≤ S64x16.size a
  hwx4_3 : ∀ i : grid4.Coords, EltTy.bits .f32 = 32 ∨ (Rect.block (s := S64x16) S64x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16.size a ≤ S16.size a
  hwx4_4 : ∀ i : grid4.Coords, EltTy.bits .f32 = 32 ∨ (Rect.block (s := S16) S16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x1.size a ≤ S16x1.size a
  hwx4_5 : ∀ i : grid4.Coords, EltTy.bits .f32 = 32 ∨ (Rect.block (s := S16x1) S16x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S64x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S16x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S64x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x16 : Shape := ⟨2, ![1, 16]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S64x16, .f32⟩
  | 8 => ⟨S16, .f32⟩
  | 9 => ⟨S16x1, .f32⟩
  | 10 => ⟨S1, .f32⟩
  | 11 => ⟨S2x800000, .i32⟩
  | 12 => ⟨S50000, .i32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .f32⟩
  | 105 => ⟨S64x128, .f32⟩
  | 106 => ⟨S50000x1, .i32⟩
  | 107 => ⟨S64x128, .f32⟩
  | 108 => ⟨S_, .f32⟩
  | 109 => ⟨S50000, .f32⟩
  | 110 => ⟨S_, .f32⟩
  | 111 => ⟨S64, .f32⟩
  | 112 => ⟨S50000x1, .i32⟩
  | 113 => ⟨S64, .f32⟩
  | 114 => ⟨S_, .f32⟩
  | 115 => ⟨S64, .f32⟩
  | 116 => ⟨S64, .f32⟩
  | 117 => ⟨S64x1, .f32⟩
  | 118 => ⟨S64x128, .f32⟩
  | 119 => ⟨S64x128, .f32⟩
  | 120 => ⟨S64x64, .f32⟩
  | 121 => ⟨S1x64, .f32⟩
  | 122 => ⟨S64x64, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S50000x128, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S64x16, .f32⟩
  | 5 => ⟨S1x16, .f32⟩
  | 6 => ⟨S64x16, .f32⟩
  | 7 => ⟨S64x16, .f32⟩
  | 8 => ⟨S_, .f32⟩
  | 9 => ⟨S64x16, .f32⟩
  | 10 => ⟨S64x16, .f32⟩
  | 11 => ⟨S64x1, .f32⟩
  | 12 => ⟨S1x1, .f32⟩
  | 13 => ⟨S64x1, .f32⟩
  | 14 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_cst : Ref sig .tc := ⟨.hbm, 101, rfl⟩
abbrev main_call1_v0 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call2_cst : Ref sig .tc := ⟨.hbm, 136, rfl⟩
abbrev main_call2_v0 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.Laws.lean ====
/-
  The arithmetic of a two-layer graph convolution with a three-layer head, on the extended reals, stated once for
  arrays of any extents and free of either program.

  Four functions carry everything: the matrix product `mm X W` (entry (r, c) is the sum over j of X(r, j) · W(j, c)),
  a row of biases added to every row of a matrix, the logistic function `sigm t = 1 / (1 + e^(-t))` and the positive
  part `relu t = max t 0`. Each is met in two spellings. A tile body spells the product as a contraction into a zero
  accumulator, the bias row as a vector viewed as one row and repeated down the rows, and the negation inside the
  logistic function as `0 - t`. The array program spells the product as a general contraction with no accumulator, the
  bias row as two broadcasts, and the negation as a negation. On the extended reals `0 - t = -t` for every `t`,
  infinite ones included, and a sum into a zero accumulator is the sum: so both spellings denote the same functions,
  and no finiteness of the operands is used anywhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GcnLaws

open Idealize.ShloMosaic Idealize.ShloMosaic.ValueIdx
open scoped BigOperators

/-- The shape of an `a × b` matrix and of a vector of length `a`. -/
abbrev Sh2 (a b : ℕ) : Shape := ⟨2, ![a, b]⟩
abbrev Sh1 (a : ℕ) : Shape := ⟨1, ![a]⟩

/-- The number one, as the binary32 word of 1.0 denotes it. -/
def one : EReal := Ideal.ofBits .f32 0x3F800000#32

/-- The logistic function on the extended reals: `1 / (1 + e^(-t))`. -/
def sigm (t : EReal) : EReal := Ideal.div one (one + Ideal.exp (-t))

/-- The positive part. -/
def relu (t : EReal) : EReal := max t 0

/-- The matrix product, entry by entry. -/
def mm {n k p : ℕ} (X : (Sh2 n k).Idx → EReal) (W : (Sh2 k p).Idx → EReal) : (Sh2 n p).Idx → EReal :=
  fun i => ∑ j : Fin k, X (ix2 (i 0) j) * W (ix2 j (i 1))

/-- A row of biases added to every row of a matrix, and a function applied to every entry of the sum. -/
def rowBias {a b : ℕ} (f : EReal → EReal) (Y : (Sh2 a b).Idx → EReal) (B : (Sh1 b).Idx → EReal) : (Sh2 a b).Idx → EReal :=
  fun i => f (Y i + B (ix1 (i 1)))

theorem rowBias_apply {a b : ℕ} (f : EReal → EReal) (Y : (Sh2 a b).Idx → EReal) (B : (Sh1 b).Idx → EReal) (p : Fin a) (q : Fin b) :
    rowBias f Y B (ix2 p q) = f (Y (ix2 p q) + B (ix1 q)) := rfl

/-- The three-layer head: a product and a bias row three times over, the logistic function after the first, the positive
    part after the second, nothing after the third. -/
def head {g d h1 h2 o : ℕ} (P : (Sh2 g d).Idx → EReal) (W1 : (Sh2 d h1).Idx → EReal) (b1 : (Sh1 h1).Idx → EReal)
    (W2 : (Sh2 h1 h2).Idx → EReal) (b2 : (Sh1 h2).Idx → EReal) (W3 : (Sh2 h2 o).Idx → EReal) (b3 : (Sh1 o).Idx → EReal) :
    (Sh2 g o).Idx → EReal :=
  rowBias id (mm (rowBias relu (mm (rowBias sigm (mm P W1) b1) W2) b2) W3) b3

/-- The product at the entry in row `r`, column `c`. -/
theorem mm_apply {n k p : ℕ} (X : (Sh2 n k).Idx → EReal) (W : (Sh2 k p).Idx → EReal) (r : Fin n) (c : Fin p) :
    mm X W (ix2 r c) = ∑ j : Fin k, X (ix2 r j) * W (ix2 j c) := rfl

/-! ## The logistic function and the positive part, in the two spellings -/

/-- A tile body's logistic function: `1 / (1 + exp (0 - t))`, the constants splatted words. -/
theorem sigm_tile (t : Ideal .f32) :
    FloatOps.divf (FloatOps.ofBits (F := Ideal) .f32 0x3F800000#32)
      (FloatOps.addf (FloatOps.ofBits (F := Ideal) .f32 0x3F800000#32)
        (FloatOps.exp (FloatOps.subf (FloatOps.ofBits (F := Ideal) .f32 0x00000000#32) t))) = sigm t := by
  simp only [Ideal.divf_def, Ideal.addf_def, Ideal.exp_def, Ideal.subf_def, Ideal.ofBits_def, Ideal.ofBits_zero_f32,
    zero_sub]
  rfl

/-- The array program's: `1 / (1 + exp (negate t))`. -/
theorem sigm_host (t : Ideal .f32) :
    FloatOps.hostDivf (FloatOps.ofBits (F := Ideal) .f32 0x3F800000#32)
      (FloatOps.addf (FloatOps.ofBits (F := Ideal) .f32 0x3F800000#32)
        (FloatOps.hostUnary .exp (FloatOps.hostNegf t))) = sigm t := by
  simp only [Ideal.hostDivf_def, Ideal.addf_def, Ideal.hostUnary_exp_def, Ideal.hostNegf_def, Ideal.negf_def,
    Ideal.ofBits_def]
  rfl

/-- The positive part against the zero word, in either program. -/
theorem relu_word (t : Ideal .f32) :
    FloatOps.maximumf t (FloatOps.ofBits (F := Ideal) .f32 0x00000000#32) = relu t := by
  simp only [Ideal.maximumf_def, Ideal.ofBits_def, Ideal.ofBits_zero_f32]
  rfl

/-! ## A row of biases, in the two spellings -/

/-- A tile body's: the vector viewed as one row, the row repeated down the rows. -/
theorem bias_tile {a b : ℕ} (v : (Sh1 b).Idx → EReal) (h1 : (Sh1 b).ShapeCasts (Sh2 1 b))
    (h2 : (Sh2 1 b).Broadcasts (Sh2 a b)) (p : Fin a) (q : Fin b) :
    broadcastTo (Sh2 a b) (shapeCast (Sh2 1 b) v h1) h2 (ix2 p q) = v (ix1 q) := by
  rw [broadcastTo_1b_ab_apply, shapeCast_a_1a_apply]

/-- The array program's: the vector broadcast along a new leading axis of length one, then down the rows. -/
theorem bias_host {a b : ℕ} (B : (Sh1 b).Idx → EReal) (h1 : (Sh1 b).BroadcastsInDim (Sh2 1 b) ![1])
    (h2 : (Sh2 1 b).BroadcastsInDim (Sh2 a b) ![0, 1]) (p : Fin a) (q : Fin b) :
    broadcastInDim (Sh2 a b) ![0, 1] h2 (broadcastInDim (Sh2 1 b) ![1] h1 B) (ix2 p q) = B (ix1 q) := by
  have hq : q.val < b := q.isLt
  refine (broadcastInDim_apply ![0, 1] h2 (broadcastInDim (Sh2 1 b) ![1] h1 B) (ix2 p q) (ix2 (0 : Fin 1) q) (fun ax => by
    match ax with
    | ⟨0, _⟩ => show (0 : ℕ) = if (1 : ℕ) = 1 then 0 else p.val; rw [if_pos rfl]
    | ⟨1, _⟩ => show q.val = if b = 1 then 0 else q.val; split <;> omega)).trans ?_
  exact broadcastInDim_apply ![1] h1 B (ix2 (0 : Fin 1) q) (ix1 q) (fun ax => by
    match ax with
    | ⟨0, _⟩ => show q.val = if b = 1 then 0 else q.val; split <;> omega)

/-- A word broadcast from a scalar to a whole array is that word everywhere. -/
theorem word_host {s : Shape} (w : BitVec 32) (h : (⟨0, ![]⟩ : Shape).BroadcastsInDim s ![]) (i : s.Idx) :
    broadcastInDim s ![] h (constant (F := Ideal) ⟨0, ![]⟩ .f32 w) i = FloatOps.ofBits (F := Ideal) .f32 w :=
  (broadcastInDim_apply ![] h (constant (F := Ideal) ⟨0, ![]⟩ .f32 w) i (fun a => a.elim0) (fun a => a.elim0)).trans rfl

/-! ## A bias row and an entrywise function over a whole matrix, in the two spellings -/

/-- A tile body's bias row followed by its logistic function is `rowBias sigm`. -/
theorem tile_sigm {a b : ℕ} (Y : (Sh2 a b).Idx → EReal) (v : (Sh1 b).Idx → EReal) (h1 : (Sh1 b).ShapeCasts (Sh2 1 b))
    (h2 : (Sh2 1 b).Broadcasts (Sh2 a b)) :
    divf (F := Ideal) (φ := .f32) (broadcast (Sh2 a b) (FloatOps.ofBits .f32 0x3F800000#32))
      (addf (broadcast (Sh2 a b) (FloatOps.ofBits .f32 0x3F800000#32))
        (exp (subf (broadcast (Sh2 a b) (FloatOps.ofBits .f32 0x00000000#32))
          (addf Y (broadcastTo (Sh2 a b) (shapeCast (Sh2 1 b) v h1) h2))))) = rowBias sigm Y v := by
  funext i
  obtain ⟨p, q, rfl⟩ : ∃ (p : Fin a) (q : Fin b), i = ix2 p q := ⟨i 0, i 1, eq_ix2 i⟩
  simp only [divf, addf, exp, subf, broadcast]
  rw [bias_tile, rowBias_apply]
  exact (sigm_tile _).trans (congrArg sigm (Ideal.addf_def _ _))

/-- A tile body's bias row followed by the positive part is `rowBias relu`. -/
theorem tile_relu {a b : ℕ} (Y : (Sh2 a b).Idx → EReal) (v : (Sh1 b).Idx → EReal) (h1 : (Sh1 b).ShapeCasts (Sh2 1 b))
    (h2 : (Sh2 1 b).Broadcasts (Sh2 a b)) :
    maximumf (F := Ideal) (φ := .f32) (addf Y (broadcastTo (Sh2 a b) (shapeCast (Sh2 1 b) v h1) h2))
      (broadcast (Sh2 a b) (FloatOps.ofBits .f32 0x00000000#32)) = rowBias relu Y v := by
  funext i
  obtain ⟨p, q, rfl⟩ : ∃ (p : Fin a) (q : Fin b), i = ix2 p q := ⟨i 0, i 1, eq_ix2 i⟩
  simp only [maximumf, addf, broadcast]
  rw [bias_tile, rowBias_apply]
  exact (relu_word _).trans (congrArg relu (Ideal.addf_def _ _))

/-- A tile body's bias row alone. -/
theorem tile_bias {a b : ℕ} (Y : (Sh2 a b).Idx → EReal) (v : (Sh1 b).Idx → EReal) (h1 : (Sh1 b).ShapeCasts (Sh2 1 b))
    (h2 : (Sh2 1 b).Broadcasts (Sh2 a b)) :
    addf (F := Ideal) (φ := .f32) Y (broadcastTo (Sh2 a b) (shapeCast (Sh2 1 b) v h1) h2) = rowBias id Y v := by
  funext i
  obtain ⟨p, q, rfl⟩ : ∃ (p : Fin a) (q : Fin b), i = ix2 p q := ⟨i 0, i 1, eq_ix2 i⟩
  simp only [addf]
  rw [bias_tile, rowBias_apply]
  exact Ideal.addf_def _ _

/-- The array program's bias row followed by its logistic function is `rowBias sigm`. -/
theorem host_sigm {a b : ℕ} (Y : (Sh2 a b).Idx → EReal) (B : (Sh1 b).Idx → EReal)
    (h : (⟨0, ![]⟩ : Shape).BroadcastsInDim (Sh2 a b) ![]) (h' : (⟨0, ![]⟩ : Shape).BroadcastsInDim (Sh2 a b) ![])
    (h1 : (Sh1 b).BroadcastsInDim (Sh2 1 b) ![1]) (h2 : (Sh2 1 b).BroadcastsInDim (Sh2 a b) ![0, 1]) :
    Host.divf (F := Ideal) (φ := .f32) (broadcastInDim (Sh2 a b) ![] h (constant ⟨0, ![]⟩ .f32 0x3F800000#32))
      (addf (broadcastInDim (Sh2 a b) ![] h' (constant ⟨0, ![]⟩ .f32 0x3F800000#32))
        (Host.exp (Host.negf (addf Y (broadcastInDim (Sh2 a b) ![0, 1] h2 (broadcastInDim (Sh2 1 b) ![1] h1 B))))))
      = rowBias sigm Y B := by
  funext i
  obtain ⟨p, q, rfl⟩ : ∃ (p : Fin a) (q : Fin b), i = ix2 p q := ⟨i 0, i 1, eq_ix2 i⟩
  simp only [Host.divf, addf, Host.exp, Host.negf, word_host]
  rw [bias_host, rowBias_apply]
  exact (sigm_host _).trans (congrArg sigm (Ideal.addf_def _ _))

/-- The array program's bias row followed by the positive part is `rowBias relu`. -/
theorem host_relu {a b : ℕ} (Y : (Sh2 a b).Idx → EReal) (B : (Sh1 b).Idx → EReal)
    (h : (⟨0, ![]⟩ : Shape).BroadcastsInDim (Sh2 a b) ![])
    (h1 : (Sh1 b).BroadcastsInDim (Sh2 1 b) ![1]) (h2 : (Sh2 1 b).BroadcastsInDim (Sh2 a b) ![0, 1]) :
    maximumf (F := Ideal) (φ := .f32) (addf Y (broadcastInDim (Sh2 a b) ![0, 1] h2 (broadcastInDim (Sh2 1 b) ![1] h1 B)))
      (broadcastInDim (Sh2 a b) ![] h (constant ⟨0, ![]⟩ .f32 0x00000000#32)) = rowBias relu Y B := by
  funext i
  obtain ⟨p, q, rfl⟩ : ∃ (p : Fin a) (q : Fin b), i = ix2 p q := ⟨i 0, i 1, eq_ix2 i⟩
  simp only [maximumf, addf, word_host]
  rw [bias_host, rowBias_apply]
  exact (relu_word _).trans (congrArg relu (Ideal.addf_def _ _))

/-- The array program's bias row alone. -/
theorem host_bias {a b : ℕ} (Y : (Sh2 a b).Idx → EReal) (B : (Sh1 b).Idx → EReal)
    (h1 : (Sh1 b).BroadcastsInDim (Sh2 1 b) ![1]) (h2 : (Sh2 1 b).BroadcastsInDim (Sh2 a b) ![0, 1]) :
    addf (F := Ideal) (φ := .f32) Y (broadcastInDim (Sh2 a b) ![0, 1] h2 (broadcastInDim (Sh2 1 b) ![1] h1 B)) = rowBias id Y B := by
  funext i
  obtain ⟨p, q, rfl⟩ : ∃ (p : Fin a) (q : Fin b), i = ix2 p q := ⟨i 0, i 1, eq_ix2 i⟩
  simp only [addf]
  rw [bias_host, rowBias_apply]
  exact Ideal.addf_def _ _

/-! ## The matrix product, in the two spellings -/

/-- A contraction of an `n × k` by a `k × p` operand over the middle axis, read at the entry in row `r`, column `c`,
    is `mm`'s sum: the contraction index runs over the one contracted axis, the left operand is read at (r, j), the
    right at (j, c). -/
theorem mm_of_contraction {n k p : ℕ} (d : DotDims (Sh2 n k) (Sh2 k p) (Sh2 n p)) (hr : d.contr.rank = 1)
    (hs : d.contr.size ⟨0, by rw [hr]; exact Nat.one_pos⟩ = k)
    (hl0 : ∀ (i : (Sh2 n p).Idx) (q : d.contr.Idx), (d.lhsIdx i q 0).val = (i 0).val)
    (hl1 : ∀ (i : (Sh2 n p).Idx) (q : d.contr.Idx), (d.lhsIdx i q 1).val = (q ⟨0, by rw [hr]; exact Nat.one_pos⟩).val)
    (hr0 : ∀ (i : (Sh2 n p).Idx) (q : d.contr.Idx), (d.rhsIdx i q 0).val = (q ⟨0, by rw [hr]; exact Nat.one_pos⟩).val)
    (hr1 : ∀ (i : (Sh2 n p).Idx) (q : d.contr.Idx), (d.rhsIdx i q 1).val = (i 1).val)
    (X : (Sh2 n k).Idx → EReal) (W : (Sh2 k p).Idx → EReal) (r : Fin n) (c : Fin p) :
    ∑ q : d.contr.Idx, X (d.lhsIdx (ix2 r c) q) * W (d.rhsIdx (ix2 r c) q) = mm X W (ix2 r c) := by
  rw [mm_apply, ← Equiv.sum_comp (contrEquiv1 d k hr hs).symm]
  refine Finset.sum_congr rfl fun j _ => ?_
  have hj := contrEquiv1_symm_val d k hr hs j
  have el : d.lhsIdx (ix2 r c) ((contrEquiv1 d k hr hs).symm j) = ix2 r j := funext fun a => Fin.ext (by
    match a with
    | ⟨0, _⟩ => exact hl0 _ _
    | ⟨1, _⟩ => exact (hl1 _ _).trans hj)
  have er : d.rhsIdx (ix2 r c) ((contrEquiv1 d k hr hs).symm j) = ix2 j c := funext fun a => Fin.ext (by
    match a with
    | ⟨0, _⟩ => exact (hr0 _ _).trans hj
    | ⟨1, _⟩ => exact hr1 _ _)
  rw [el, er]

end Cert.GcnLaws

end
-- ==== Proof.Glue.lean ====
/-
  The array operations of the program between its tile regions, as functions. From the edge list `e` (two rows of
  800000 node numbers): the source and destination of every message, the edge list's rows each followed by the 50000
  self-loops (`srcOf`, `dstOf`); every message's weight, the product of the inverse square roots of its two
  endpoints' in-degrees, a degree of zero giving weight zero (`normOf`); and a convolution's aggregation: every node
  receives the weighted sum of the transformed features of the sources of the messages addressed to it (`agg`).
  From the graph number `b` of every node: the mean of the node features over each of the 64 graphs, an empty
  graph's divisor being one (`pool`). A node or graph number outside its range is handled by the gather's and the
  scatter's own conventions, the same in both programs, and nothing here looks inside them.
-/
import proofs.«112650_j56341380989304_1_alg».proof.Proof.Gen.KernelIdeal
import proofs.«112650_j56341380989304_1_alg».proof.Proof.Laws
import Idealize.ShloMosaic.PureOps.Ideal

set_option maxRecDepth 16384

noncomputable section

namespace Cert.KernelIdeal.Glue

open Cert.KernelIdeal Cert.KernelIdeal.Facts₀ Cert.KernelIdeal.Facts
open Idealize.ShloMosaic Idealize.ShloMosaic.TcCoe Idealize.SL.Sem

variable {F : FTy → Type} [FloatOps F]

/-- An integer array and a float array of a given shape. -/
abbrev I32 (F : FTy → Type) (S : Shape) : Type := (⟨S, .i32⟩ : BufTy).Contents (Elt F)
abbrev F32 (F : FTy → Type) (S : Shape) : Type := (⟨S, .f32⟩ : BufTy).Contents (Elt F)

/-- The source of every message: the edge list's first row, then every node once. -/
def srcOf (e : I32 F S2x800000) : I32 F S850000 :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The destination of every message: the edge list's second row, then every node once. -/
def dstOf (e : I32 F S2x800000) : I32 F S850000 :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- The inverse square root of every node's in-degree, zero where the degree is not positive. -/
def dinvOf (e : I32 F S2x800000) : F32 F S50000 :=
  (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32)))) (broadcastInDim S50000 ![] bcast_S_S50000 (id (constant S_ .f32 0x00000000#32))))

/-- The weight of every message: the product of its two endpoints' inverse square roots of degree. -/
def normOf (e : I32 F S2x800000) : F32 F S850000 :=
  (mulf (Host.gather gather_S50000_S850000x1_S850000_n_0_n_n_0_1_1 (dinvOf e) (broadcastInDim S850000x1 ![0] bcast_S850000_S850000x1_0 (select (cmpi .slt (srcOf e) (broadcastInDim S850000 ![] bcast_S_S850000 (constantI S_ 32 0#32))) (addi (srcOf e) (broadcastInDim S850000 ![] bcast_S_S850000 (constantI S_ 32 50000#32))) (srcOf e)))) (Host.gather gather_S50000_S850000x1_S850000_n_0_n_n_0_1_1 (dinvOf e) (broadcastInDim S850000x1 ![0] bcast_S850000_S850000x1_0 (select (cmpi .slt (dstOf e) (broadcastInDim S850000 ![] bcast_S_S850000 (constantI S_ 32 0#32))) (addi (dstOf e) (broadcastInDim S850000 ![] bcast_S_S850000 (constantI S_ 32 50000#32))) (dstOf e)))))

/-- A convolution's aggregation of the transformed features `xw`. -/
def agg (xw : F32 F S50000x128) (e : I32 F S2x800000) : F32 F S50000x128 :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 (dstOf e)) (mulf (Host.gather gather_S50000x128_S850000x1_S850000x128_1_0_n_n_0_1_1128 xw (broadcastInDim S850000x1 ![0] bcast_S850000_S850000x1_0 (select (cmpi .slt (srcOf e) (broadcastInDim S850000 ![] bcast_S_S850000 (constantI S_ 32 0#32))) (addi (srcOf e) (broadcastInDim S850000 ![] bcast_S_S850000 (constantI S_ 32 50000#32))) (srcOf e)))) (broadcastInDim S850000x128 ![0, 1] bcast_S850000x1_S850000x128_0_1 (broadcastInDim S850000x1 ![0] bcast_S850000_S850000x1_0 (normOf e)))))

/-- The mean of the node features `h` over each graph. -/
def pool (h : F32 F S50000x128) (b : I32 F S50000) : F32 F S64x128 :=
  (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 b) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 b) (broadcastInDim S50000 ![] bcast_S_S50000 (constant S_ .f32 0x3F800000#32))) (broadcastInDim S64 ![] bcast_S_S64 (constant S_ .f32 0x3F800000#32))))))

/-- The whole network on the extended reals: two convolutions (a product with the layer's weights, the aggregation, a
    bias row, then the logistic function after the first and the positive part after the second), the pooling, the head. -/
def model (x0 : F32 Ideal S50000x128) (x1 : F32 Ideal S128x128) (x2 : F32 Ideal S128) (x3 : F32 Ideal S128x128)
    (x4 : F32 Ideal S128) (x5 : F32 Ideal S128x64) (x6 : F32 Ideal S64) (x7 : F32 Ideal S64x16) (x8 : F32 Ideal S16)
    (x9 : F32 Ideal S16x1) (x10 : F32 Ideal S1) (x11 : I32 Ideal S2x800000) (x12 : I32 Ideal S50000) : F32 Ideal S64x1 :=
  Cert.GcnLaws.head
    (pool (F := Ideal) (Cert.GcnLaws.rowBias Cert.GcnLaws.relu
      (agg (F := Ideal) (Cert.GcnLaws.mm (Cert.GcnLaws.rowBias Cert.GcnLaws.sigm (agg (F := Ideal) (Cert.GcnLaws.mm x0 x1) x11) x2) x3) x11) x4) x12)
    x5 x6 x7 x8 x9 x10

end Cert.KernelIdeal.Glue

end
-- ==== Proof.RefGlue.lean ====
/-
  The same array operations as functions, over the reference program's own names: the source and destination of every
  message, every message's weight, a convolution's aggregation, the mean over each graph, and the whole network. The
  reference applies them to its own products, bias rows and entrywise functions, which on the extended reals are the
  functions of the arithmetic module.
-/
import proofs.«112650_j56341380989304_1_alg».proof.Proof.Gen.ReferenceIdeal
import proofs.«112650_j56341380989304_1_alg».proof.Proof.Laws
import Idealize.ShloMosaic.PureOps.Ideal

set_option maxRecDepth 16384

noncomputable section

namespace Cert.ReferenceIdeal.Glue

open Cert.ReferenceIdeal Cert.ReferenceIdeal.Facts₀ Cert.ReferenceIdeal.Facts
open Idealize.ShloMosaic Idealize.ShloMosaic.TcCoe Idealize.SL.Sem

variable {F : FTy → Type} [FloatOps F]

/-- An integer array and a float array of a given shape. -/
abbrev I32 (F : FTy → Type) (S : Shape) : Type := (⟨S, .i32⟩ : BufTy).Contents (Elt F)
abbrev F32 (F : FTy → Type) (S : Shape) : Type := (⟨S, .f32⟩ : BufTy).Contents (Elt F)

/-- The source of every message: the edge list's first row, then every node once. -/
def srcOf (e : I32 F S2x800000) : I32 F S850000 :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The destination of every message: the edge list's second row, then every node once. -/
def dstOf (e : I32 F S2x800000) : I32 F S850000 :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- The inverse square root of every node's in-degree, zero where the degree is not positive. -/
def dinvOf (e : I32 F S2x800000) : F32 F S50000 :=
  (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32)))) (broadcastInDim S50000 ![] bcast_S_S50000 (id (constant S_ .f32 0x00000000#32))))

/-- The weight of every message: the product of its two endpoints' inverse square roots of degree. -/
def normOf (e : I32 F S2x800000) : F32 F S850000 :=
  (mulf (Host.gather gather_S50000_S850000x1_S850000_n_0_n_n_0_1_1 (dinvOf e) (broadcastInDim S850000x1 ![0] bcast_S850000_S850000x1_0 (select (cmpi .slt (srcOf e) (broadcastInDim S850000 ![] bcast_S_S850000 (constantI S_ 32 0#32))) (addi (srcOf e) (broadcastInDim S850000 ![] bcast_S_S850000 (constantI S_ 32 50000#32))) (srcOf e)))) (Host.gather gather_S50000_S850000x1_S850000_n_0_n_n_0_1_1 (dinvOf e) (broadcastInDim S850000x1 ![0] bcast_S850000_S850000x1_0 (select (cmpi .slt (dstOf e) (broadcastInDim S850000 ![] bcast_S_S850000 (constantI S_ 32 0#32))) (addi (dstOf e) (broadcastInDim S850000 ![] bcast_S_S850000 (constantI S_ 32 50000#32))) (dstOf e)))))

/-- A convolution's aggregation of the transformed features `xw`. -/
def agg (xw : F32 F S50000x128) (e : I32 F S2x800000) : F32 F S50000x128 :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 (dstOf e)) (mulf (Host.gather gather_S50000x128_S850000x1_S850000x128_1_0_n_n_0_1_1128 xw (broadcastInDim S850000x1 ![0] bcast_S850000_S850000x1_0 (select (cmpi .slt (srcOf e) (broadcastInDim S850000 ![] bcast_S_S850000 (constantI S_ 32 0#32))) (addi (srcOf e) (broadcastInDim S850000 ![] bcast_S_S850000 (constantI S_ 32 50000#32))) (srcOf e)))) (broadcastInDim S850000x128 ![0, 1] bcast_S850000x1_S850000x128_0_1 (broadcastInDim S850000x1 ![0] bcast_S850000_S850000x1_0 (normOf e)))))

/-- The mean of the node features `h` over each graph. -/
def pool (h : F32 F S50000x128) (b : I32 F S50000) : F32 F S64x128 :=
  (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 b) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 b) (broadcastInDim S50000 ![] bcast_S_S50000 (constant S_ .f32 0x3F800000#32))) (broadcastInDim S64 ![] bcast_S_S64 (constant S_ .f32 0x3F800000#32))))))

/-- The whole network on the extended reals: two convolutions (a product with the layer's weights, the aggregation, a
    bias row, then the logistic function after the first and the positive part after the second), the pooling, the head. -/
def model (x0 : F32 Ideal S50000x128) (x1 : F32 Ideal S128x128) (x2 : F32 Ideal S128) (x3 : F32 Ideal S128x128)
    (x4 : F32 Ideal S128) (x5 : F32 Ideal S128x64) (x6 : F32 Ideal S64) (x7 : F32 Ideal S64x16) (x8 : F32 Ideal S16)
    (x9 : F32 Ideal S16x1) (x10 : F32 Ideal S1) (x11 : I32 Ideal S2x800000) (x12 : I32 Ideal S50000) : F32 Ideal S64x1 :=
  Cert.GcnLaws.head
    (pool (F := Ideal) (Cert.GcnLaws.rowBias Cert.GcnLaws.relu
      (agg (F := Ideal) (Cert.GcnLaws.mm (Cert.GcnLaws.rowBias Cert.GcnLaws.sigm (agg (F := Ideal) (Cert.GcnLaws.mm x0 x1) x11) x2) x3) x11) x4) x12)
    x5 x6 x7 x8 x9 x10

end Cert.ReferenceIdeal.Glue

end
-- ==== Proof.KernelRun.lean ====
/-
  The idealized kernel's whole run with its result kept. The program is five tile regions among stretches of array
  operations; its buffer contents at the eleven segment boundaries are a fold from the launch memory, and at the last
  boundary every buffer that outlives the regions holds what that fold says. The frame statement reads thirteen of
  those buffers (the arguments, each unchanged); this one also reads the result buffer, which ends at the last
  boundary's contents of the head's output array.
-/
import proofs.«112650_j56341380989304_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.Whole

end
-- ==== Proof.Lin1.lean ====
/-
  The first tile region: the node features times the first layer's weights, ten blocks of 5000 rows.
  Whatever the region finds in its two input arrays, its output array ends holding the matrix product `mm X W`: block
  `t` of the output is the product of block `t` of `X` (rows 5000·t … 5000·t + 4999) with the whole of `W`, because
  an entry of a product depends on one row of the left factor only; the ten blocks tile the 50000 rows. The body
  rounds both factors to a narrower format first and accumulates into a zero matrix: on the extended reals the change
  of format is the identity and the sum into zero is the sum.
-/
import proofs.«112650_j56341380989304_1_alg».proof.Proof.Gen.KernelIdeal.Frame
import proofs.«112650_j56341380989304_1_alg».proof.Proof.Laws
import Idealize.ShloMosaic.Lib.Pipeline.Value
import Idealize.ShloMosaic.Lib.ValueIdx
import Idealize.ShloMosaic.PureOps.Ideal.Laws

set_option maxRecDepth 16384

noncomputable section

namespace Cert.KernelIdeal.Lin1

open Cert.KernelIdeal Cert.KernelIdeal.Gen Cert.GcnLaws
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two arrays the region finds: the left factor and the weights. -/
abbrev Xof (c : Dev nD) : S50000x128.Idx → EReal := V c main_arg0
abbrev Wof (c : Dev nD) : S128x128.Idx → EReal := V c main_arg1

theorem hz2 : (![0, 0] : Fin 2 → Nat) = fun _ => 0 := funext fun a => by fin_cases a <;> rfl

/-- The tile's contraction, read at the entry (p, q), is the product's sum over the 128 middle indices. -/
theorem dot_apply (X : S5000x128.Idx → EReal) (W : S128x128.Idx → EReal) (p : Fin 5000) (q : Fin 128) :
    ∑ k : dot_S5000x128_S128x128_S5000x128_1_0_0_1_n_n.contr.Idx,
        X (dot_S5000x128_S128x128_S5000x128_1_0_0_1_n_n.lhsIdx (ix2 p q) k) * W (dot_S5000x128_S128x128_S5000x128_1_0_0_1_n_n.rhsIdx (ix2 p q) k)
      = mm X W (ix2 p q) :=
  mm_of_contraction dot_S5000x128_S128x128_S5000x128_1_0_0_1_n_n rfl rfl
    (fun i k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i k => dot_S5000x128_S128x128_S5000x128_1_0_0_1_n_n.lhsIdx_val_of_single rfl i k)
    (fun i k => dot_S5000x128_S128x128_S5000x128_1_0_0_1_n_n.rhsIdx_val_of_single rfl i k)
    (fun i k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    X W p q

/-- The body's arithmetic at the entry (p, q) of a block: the product of the block with the weights. -/
theorem pay_apply (x0 : S5000x128.Idx → EReal) (x1 : S128x128.Idx → EReal) (p : Fin 5000) (q : Fin 128) :
    k0_pay1 (F := Ideal) x0 x1 (ix2 p q) = mm x0 x1 (ix2 p q) := by
  unfold k0_pay1
  refine (Ideal.matmul_constant_zero_apply _ none _ _ (ix2 p q)).trans ?_
  simp only [truncf, Ideal.truncf_def]
  exact dot_apply x0 x1 p q

/-- The block maps over the grid: point `t` takes block `t` of the rows of the left factor and of the output, and the
    whole of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `5000·t + p` of the whole matrix. -/
def row (t : Fin cfg0.N) (p : Fin 5000) : Fin 50000 :=
  ⟨t.val * 5000 + p.val, by have := t.isLt; have hN : cfg0.N = 10 := N_0; omega⟩

theorem emb_out (t : Fin cfg0.N) (p : Fin 5000) (q : Fin 128) :
    ((cfg0.win 2).blk t).view.emb (ix2 p q) = (ix2 (row t p) q : S50000x128.Idx) := by
  obtain ⟨e0, e1, e2, e3, e4, e5⟩ := idx_facts t
  funext a; apply Fin.ext
  match a with
  | ⟨0, _⟩ => show win0_2.index t (0 : Fin 2) * 5000 + 1 * p.val = t.val * 5000 + p.val; rw [e4]; omega
  | ⟨1, _⟩ => show win0_2.index t (1 : Fin 2) * 128 + 1 * q.val = q.val; rw [e5]; omega

theorem emb_in (t : Fin cfg0.N) (p : Fin 5000) (q : Fin 128) :
    ((cfg0.win 0).blk t).view.emb (ix2 p q) = (ix2 (row t p) q : S50000x128.Idx) := by
  obtain ⟨e0, e1, e2, e3, e4, e5⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * q.val = q.val; rw [e1]; omega

theorem emb_w (t : Fin cfg0.N) (j : Fin 128) (q : Fin 128) :
    ((cfg0.win 1).blk t).view.emb (ix2 j q) = (ix2 j q : S128x128.Idx) := by
  obtain ⟨e0, e1, e2, e3, e4, e5⟩ := idx_facts t
  funext a; apply Fin.ext
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- Block `t` of the left factor, read at (p, j), is the array at row `5000·t + p`, column `j`. -/
theorem iblk_mat (c : Dev nD) (t : Fin cfg0.N) (p : Fin 5000) (j : Fin 128) :
    iblk0 V c 0 t (ix2 p j) = Xof V c (ix2 (row t p) j) := by
  unfold iblk0
  rw [View.read_apply]
  show Xof V c (((cfg0.win 0).blk t).view.emb (ix2 p j)) = _
  rw [emb_in]

/-- Every point's block of the weights is the weights. -/
theorem iblk_w (c : Dev nD) (t : Fin cfg0.N) (j : Fin 128) (q : Fin 128) :
    iblk0 V c 1 t (ix2 j q) = Wof V c (ix2 j q) := by
  unfold iblk0
  rw [View.read_apply]
  show Wof V c (((cfg0.win 1).blk t).view.emb (ix2 j q)) = _
  rw [emb_w]

/-- What point `t` writes back is block `t` of the product. -/
theorem flushed_eq (c : Dev nD) (t : Fin cfg0.N) :
    (dat0 V c).flushed 2 t = ((cfg0.win 2).blk t).view.read (Elt Ideal) (mm (Xof V c) (Wof V c)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = mm (Xof V c) (Wof V c) (((cfg0.win 2).blk t).view.emb (ix2 p q))
  refine (pay_apply (iblk0 V c 0 t) (iblk0 V c 1 t) p q).trans ?_
  rw [emb_out, mm_apply, mm_apply]
  exact Finset.sum_congr rfl fun j _ => by rw [iblk_mat, iblk_w]

/-- An entry of the output array is in point `t`'s block iff its coordinates are in the block's ranges. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry is in the block of the point its row falls in. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨e0, e1, e2, e3, e4, e5⟩ := idx_facts t
  refine ⟨t, flush0_2 t, ?_⟩
  rw [mem_blk]
  intro a
  have ht : t.val = (i 0).val / 5000 := rfl
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 128 ≤ (i 1).val ∧ (i 1).val < win0_2.index t (1 : Fin 2) * 128 + 128; rw [e5]; omega

/-- The output array after the region. -/
theorem result (c : Dev nD) : (dat0 V c).arrAt 2 cfg0.N = mm (Xof V c) (Wof V c) :=
  (dat0 V c).arrAt_eq_of_cover 2 _ (fun t _ => flushed_eq V c t) cover

end Cert.KernelIdeal.Lin1

end
-- ==== Proof.Act1.lean ====
/-
  The second tile region: a row of biases added to the first convolution's aggregated messages, then the logistic
  function, ten blocks of 5000 rows. Whatever the region finds in its two input arrays, its output array ends holding
  `sigm (Y(r, c) + B(c))` at every entry (r, c): block `t` of the output is computed from block `t` of `Y` (rows
  5000·t … 5000·t + 4999) and the whole of `B`, and the ten blocks tile the 50000 rows.
-/
import proofs.«112650_j56341380989304_1_alg».proof.Proof.Gen.KernelIdeal.Frame
import proofs.«112650_j56341380989304_1_alg».proof.Proof.Laws
import Idealize.ShloMosaic.Lib.Pipeline.Value
import Idealize.ShloMosaic.Lib.ValueIdx

set_option maxRecDepth 16384

noncomputable section

namespace Cert.KernelIdeal.Act1

open Cert.KernelIdeal Cert.KernelIdeal.Gen Cert.GcnLaws
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two arrays the region finds: the aggregated messages and the bias vector. -/
abbrev Yof (c : Dev nD) : S50000x128.Idx → EReal := V c main_v43
abbrev Bof (c : Dev nD) : S128.Idx → EReal := V c main_arg2

theorem hz2 : (![0, 0] : Fin 2 → Nat) = fun _ => 0 := funext fun a => by fin_cases a <;> rfl
theorem hz1 : (![0] : Fin 1 → Nat) = fun _ => 0 := funext fun a => by fin_cases a <;> rfl

/-- The body's arithmetic at the entry (p, q) of a block: the logistic function of the block's entry plus the bias of
    column q. -/
theorem pay_apply (x0 : S5000x128.Idx → EReal) (x1 : S128.Idx → EReal) (p : Fin 5000) (q : Fin 128) :
    k1_pay1 (F := Ideal) x0 x1 (ix2 p q) = sigm (x0 (ix2 p q) + x1 (ix1 q)) := by
  unfold k1_pay1
  simp only [divf, addf, exp, subf, broadcast]
  rw [shapeCast_self, bias_tile]
  exact (sigm_tile _).trans (congrArg sigm (Ideal.addf_def _ _))

/-- The block maps over the grid: point `t` takes block `t` of the rows of the matrix operand and of the output, and
    the whole bias vector. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Row `5000·t + p`, column `q` of the whole matrix. -/
def entry (t : Fin cfg1.N) (p : Fin 5000) (q : Fin 128) : S50000x128.Idx :=
  ix2 (⟨t.val * 5000 + p.val, by have := t.isLt; have hN : cfg1.N = 10 := N_1; omega⟩ : Fin 50000) q

theorem emb_out (t : Fin cfg1.N) (p : Fin 5000) (q : Fin 128) :
    ((cfg1.win 2).blk t).view.emb (ix2 p q) = entry t p q := by
  obtain ⟨e0, e1, e2, e3, e4⟩ := idx_facts t
  funext a; apply Fin.ext
  match a with
  | ⟨0, _⟩ => show win1_2.index t (0 : Fin 2) * 5000 + 1 * p.val = t.val * 5000 + p.val; rw [e3]; omega
  | ⟨1, _⟩ => show win1_2.index t (1 : Fin 2) * 128 + 1 * q.val = q.val; rw [e4]; omega

theorem emb_in (t : Fin cfg1.N) (p : Fin 5000) (q : Fin 128) :
    ((cfg1.win 0).blk t).view.emb (ix2 p q) = entry t p q := by
  obtain ⟨e0, e1, e2, e3, e4⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem emb_bias (t : Fin cfg1.N) (q : Fin 128) :
    ((cfg1.win 1).blk t).view.emb (ix1 q) = (ix1 q : S128.Idx) := by
  obtain ⟨e0, e1, e2, e3, e4⟩ := idx_facts t
  funext a; apply Fin.ext
  match a with
  | ⟨0, _⟩ => show win1_1.index t (0 : Fin 1) * 128 + 1 * q.val = q.val; rw [e2]; omega

/-- Block `t` of the matrix operand, read at (p, q), is the array at row `5000·t + p`, column `q`. -/
theorem iblk_mat (c : Dev nD) (t : Fin cfg1.N) (p : Fin 5000) (q : Fin 128) :
    iblk1 V c 0 t (ix2 p q) = Yof V c (entry t p q) := by
  unfold iblk1
  rw [View.read_apply]
  show Yof V c (((cfg1.win 0).blk t).view.emb (ix2 p q)) = _
  rw [emb_in]

/-- Every point's block of the bias vector is the vector. -/
theorem iblk_bias (c : Dev nD) (t : Fin cfg1.N) (q : Fin 128) :
    iblk1 V c 1 t (ix1 q) = Bof V c (ix1 q) := by
  unfold iblk1
  rw [View.read_apply]
  show Bof V c (((cfg1.win 1).blk t).view.emb (ix1 q)) = _
  rw [emb_bias]

/-- What point `t` writes back is block `t` of the whole-array function. -/
theorem flushed_eq (c : Dev nD) (t : Fin cfg1.N) :
    (dat1 V c).flushed 2 t = ((cfg1.win 2).blk t).view.read (Elt Ideal) (rowBias sigm (Yof V c) (Bof V c)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = rowBias sigm (Yof V c) (Bof V c) (((cfg1.win 2).blk t).view.emb (ix2 p q))
  refine (pay_apply (iblk1 V c 0 t) (iblk1 V c 1 t) p q).trans ?_
  rw [iblk_mat, iblk_bias, emb_out]
  rfl

/-- An entry of the output array is in point `t`'s block iff its coordinates are in the block's ranges. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every entry is in the block of the point its row falls in. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨e0, e1, e2, e3, e4⟩ := idx_facts t
  refine ⟨t, flush1_2 t, ?_⟩
  rw [mem_blk]
  intro a
  have ht : t.val = (i 0).val / 5000 := rfl
  match a with
  | ⟨0, _⟩ => show win1_2.index t (0 : Fin 2) * 5000 ≤ (i 0).val ∧ (i 0).val < win1_2.index t (0 : Fin 2) * 5000 + 5000; rw [e3]; omega
  | ⟨1, _⟩ => show win1_2.index t (1 : Fin 2) * 128 ≤ (i 1).val ∧ (i 1).val < win1_2.index t (1 : Fin 2) * 128 + 128; rw [e4]; omega

/-- The output array after the region. -/
theorem result (c : Dev nD) :
    (dat1 V c).arrAt 2 cfg1.N = rowBias sigm (Yof V c) (Bof V c) :=
  (dat1 V c).arrAt_eq_of_cover 2 _ (fun t _ => flushed_eq V c t) cover

end Cert.KernelIdeal.Act1

end
-- ==== Proof.Lin2.lean ====
/-
  The third tile region: the first layer's activations times the second layer's weights, ten blocks of 5000 rows.
  Whatever the region finds in its two input arrays, its output array ends holding the matrix product `mm X W`: block
  `t` of the output is the product of block `t` of `X` (rows 5000·t … 5000·t + 4999) with the whole of `W`, because
  an entry of a product depends on one row of the left factor only; the ten blocks tile the 50000 rows. The body
  rounds both factors to a narrower format first and accumulates into a zero matrix: on the extended reals the change
  of format is the identity and the sum into zero is the sum.
-/
import proofs.«112650_j56341380989304_1_alg».proof.Proof.Gen.KernelIdeal.Frame
import proofs.«112650_j56341380989304_1_alg».proof.Proof.Laws
import Idealize.ShloMosaic.Lib.Pipeline.Value
import Idealize.ShloMosaic.Lib.ValueIdx
import Idealize.ShloMosaic.PureOps.Ideal.Laws

set_option maxRecDepth 16384

noncomputable section

namespace Cert.KernelIdeal.Lin2

open Cert.KernelIdeal Cert.KernelIdeal.Gen Cert.GcnLaws
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two arrays the region finds: the left factor and the weights. -/
abbrev Xof (c : Dev nD) : S50000x128.Idx → EReal := V c main_v44
abbrev Wof (c : Dev nD) : S128x128.Idx → EReal := V c main_arg3

theorem hz2 : (![0, 0] : Fin 2 → Nat) = fun _ => 0 := funext fun a => by fin_cases a <;> rfl

/-- The tile's contraction, read at the entry (p, q), is the product's sum over the 128 middle indices. -/
theorem dot_apply (X : S5000x128.Idx → EReal) (W : S128x128.Idx → EReal) (p : Fin 5000) (q : Fin 128) :
    ∑ k : dot_S5000x128_S128x128_S5000x128_1_0_0_1_n_n.contr.Idx,
        X (dot_S5000x128_S128x128_S5000x128_1_0_0_1_n_n.lhsIdx (ix2 p q) k) * W (dot_S5000x128_S128x128_S5000x128_1_0_0_1_n_n.rhsIdx (ix2 p q) k)
      = mm X W (ix2 p q) :=
  mm_of_contraction dot_S5000x128_S128x128_S5000x128_1_0_0_1_n_n rfl rfl
    (fun i k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i k => dot_S5000x128_S128x128_S5000x128_1_0_0_1_n_n.lhsIdx_val_of_single rfl i k)
    (fun i k => dot_S5000x128_S128x128_S5000x128_1_0_0_1_n_n.rhsIdx_val_of_single rfl i k)
    (fun i k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    X W p q

/-- The body's arithmetic at the entry (p, q) of a block: the product of the block with the weights. -/
theorem pay_apply (x0 : S5000x128.Idx → EReal) (x1 : S128x128.Idx → EReal) (p : Fin 5000) (q : Fin 128) :
    k2_pay1 (F := Ideal) x0 x1 (ix2 p q) = mm x0 x1 (ix2 p q) := by
  unfold k2_pay1
  refine (Ideal.matmul_constant_zero_apply _ none _ _ (ix2 p q)).trans ?_
  simp only [truncf, Ideal.truncf_def, shapeCast_self]
  exact dot_apply x0 x1 p q

/-- The block maps over the grid: point `t` takes block `t` of the rows of the left factor and of the output, and the
    whole of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `5000·t + p` of the whole matrix. -/
def row (t : Fin cfg2.N) (p : Fin 5000) : Fin 50000 :=
  ⟨t.val * 5000 + p.val, by have := t.isLt; have hN : cfg2.N = 10 := N_2; omega⟩

theorem emb_out (t : Fin cfg2.N) (p : Fin 5000) (q : Fin 128) :
    ((cfg2.win 2).blk t).view.emb (ix2 p q) = (ix2 (row t p) q : S50000x128.Idx) := by
  obtain ⟨e0, e1, e2, e3, e4, e5⟩ := idx_facts t
  funext a; apply Fin.ext
  match a with
  | ⟨0, _⟩ => show win2_2.index t (0 : Fin 2) * 5000 + 1 * p.val = t.val * 5000 + p.val; rw [e4]; omega
  | ⟨1, _⟩ => show win2_2.index t (1 : Fin 2) * 128 + 1 * q.val = q.val; rw [e5]; omega

theorem emb_in (t : Fin cfg2.N) (p : Fin 5000) (q : Fin 128) :
    ((cfg2.win 0).blk t).view.emb (ix2 p q) = (ix2 (row t p) q : S50000x128.Idx) := by
  obtain ⟨e0, e1, e2, e3, e4, e5⟩ := idx_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

theorem emb_w (t : Fin cfg2.N) (j : Fin 128) (q : Fin 128) :
    ((cfg2.win 1).blk t).view.emb (ix2 j q) = (ix2 j q : S128x128.Idx) := by
  obtain ⟨e0, e1, e2, e3, e4, e5⟩ := idx_facts t
  funext a; apply Fin.ext
  match a with
  | ⟨0, _⟩ => show win2_1.index t (0 : Fin 2) * 128 + 1 * j.val = j.val; rw [e2]; omega
  | ⟨1, _⟩ => show win2_1.index t (1 : Fin 2) * 128 + 1 * q.val = q.val; rw [e3]; omega

/-- Block `t` of the left factor, read at (p, j), is the array at row `5000·t + p`, column `j`. -/
theorem iblk_mat (c : Dev nD) (t : Fin cfg2.N) (p : Fin 5000) (j : Fin 128) :
    iblk2 V c 0 t (ix2 p j) = Xof V c (ix2 (row t p) j) := by
  unfold iblk2
  rw [View.read_apply]
  show Xof V c (((cfg2.win 0).blk t).view.emb (ix2 p j)) = _
  rw [emb_in]

/-- Every point's block of the weights is the weights. -/
theorem iblk_w (c : Dev nD) (t : Fin cfg2.N) (j : Fin 128) (q : Fin 128) :
    iblk2 V c 1 t (ix2 j q) = Wof V c (ix2 j q) := by
  unfold iblk2
  rw [View.read_apply]
  show Wof V c (((cfg2.win 1).blk t).view.emb (ix2 j q)) = _
  rw [emb_w]

/-- What point `t` writes back is block `t` of the product. -/
theorem flushed_eq (c : Dev nD) (t : Fin cfg2.N) :
    (dat2 V c).flushed 2 t = ((cfg2.win 2).blk t).view.read (Elt Ideal) (mm (Xof V c) (Wof V c)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = mm (Xof V c) (Wof V c) (((cfg2.win 2).blk t).view.emb (ix2 p q))
  refine (pay_apply (iblk2 V c 0 t) (iblk2 V c 1 t) p q).trans ?_
  rw [emb_out, mm_apply, mm_apply]
  exact Finset.sum_congr rfl fun j _ => by rw [iblk_mat, iblk_w]

/-- An entry of the output array is in point `t`'s block iff its coordinates are in the block's ranges. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every entry is in the block of the point its row falls in. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by omega⟩
  obtain ⟨e0, e1, e2, e3, e4, e5⟩ := idx_facts t
  refine ⟨t, flush2_2 t, ?_⟩
  rw [mem_blk]
  intro a
  have ht : t.val = (i 0).val / 5000 := rfl
  match a with
  | ⟨0, _⟩ => show win2_2.index t (0 : Fin 2) * 5000 ≤ (i 0).val ∧ (i 0).val < win2_2.index t (0 : Fin 2) * 5000 + 5000; rw [e4]; omega
  | ⟨1, _⟩ => show win2_2.index t (1 : Fin 2) * 128 ≤ (i 1).val ∧ (i 1).val < win2_2.index t (1 : Fin 2) * 128 + 128; rw [e5]; omega

/-- The output array after the region. -/
theorem result (c : Dev nD) : (dat2 V c).arrAt 2 cfg2.N = mm (Xof V c) (Wof V c) :=
  (dat2 V c).arrAt_eq_of_cover 2 _ (fun t _ => flushed_eq V c t) cover

end Cert.KernelIdeal.Lin2

end
-- ==== Proof.Act2.lean ====
/-
  The fourth tile region: a row of biases added to the second convolution's aggregated messages, then the positive
  part, ten blocks of 5000 rows. Whatever the region finds in its two input arrays, its output array ends holding
  `max (Y(r, c) + B(c)) 0` at every entry (r, c): block `t` of the output is computed from block `t` of `Y` (rows
  5000·t … 5000·t + 4999) and the whole of `B`, and the ten blocks tile the 50000 rows.
-/
import proofs.«112650_j56341380989304_1_alg».proof.Proof.Gen.KernelIdeal.Frame
import proofs.«112650_j56341380989304_1_alg».proof.Proof.Laws
import Idealize.ShloMosaic.Lib.Pipeline.Value
import Idealize.ShloMosaic.Lib.ValueIdx

set_option maxRecDepth 16384

noncomputable section

namespace Cert.KernelIdeal.Act2

open Cert.KernelIdeal Cert.KernelIdeal.Gen Cert.GcnLaws
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two arrays the region finds: the aggregated messages and the bias vector. -/
abbrev Yof (c : Dev nD) : S50000x128.Idx → EReal := V c main_v58
abbrev Bof (c : Dev nD) : S128.Idx → EReal := V c main_arg4

theorem hz2 : (![0, 0] : Fin 2 → Nat) = fun _ => 0 := funext fun a => by fin_cases a <;> rfl
theorem hz1 : (![0] : Fin 1 → Nat) = fun _ => 0 := funext fun a => by fin_cases a <;> rfl

/-- The body's arithmetic at the entry (p, q) of a block: the positive part of the block's entry plus the bias of
    column q. -/
theorem pay_apply (x0 : S5000x128.Idx → EReal) (x1 : S128.Idx → EReal) (p : Fin 5000) (q : Fin 128) :
    k3_pay1 (F := Ideal) x0 x1 (ix2 p q) = relu (x0 (ix2 p q) + x1 (ix1 q)) := by
  unfold k3_pay1
  simp only [maximumf, addf, broadcast]
  rw [shapeCast_self, bias_tile]
  exact (relu_word _).trans (congrArg relu (Ideal.addf_def _ _))

/-- The block maps over the grid: point `t` takes block `t` of the rows of the matrix operand and of the output, and
    the whole bias vector. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Row `5000·t + p`, column `q` of the whole matrix. -/
def entry (t : Fin cfg3.N) (p : Fin 5000) (q : Fin 128) : S50000x128.Idx :=
  ix2 (⟨t.val * 5000 + p.val, by have := t.isLt; have hN : cfg3.N = 10 := N_3; omega⟩ : Fin 50000) q

theorem emb_out (t : Fin cfg3.N) (p : Fin 5000) (q : Fin 128) :
    ((cfg3.win 2).blk t).view.emb (ix2 p q) = entry t p q := by
  obtain ⟨e0, e1, e2, e3, e4⟩ := idx_facts t
  funext a; apply Fin.ext
  match a with
  | ⟨0, _⟩ => show win3_2.index t (0 : Fin 2) * 5000 + 1 * p.val = t.val * 5000 + p.val; rw [e3]; omega
  | ⟨1, _⟩ => show win3_2.index t (1 : Fin 2) * 128 + 1 * q.val = q.val; rw [e4]; omega

theorem emb_in (t : Fin cfg3.N) (p : Fin 5000) (q : Fin 128) :
    ((cfg3.win 0).blk t).view.emb (ix2 p q) = entry t p q := by
  obtain ⟨e0, e1, e2, e3, e4⟩ := idx_facts t
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

theorem emb_bias (t : Fin cfg3.N) (q : Fin 128) :
    ((cfg3.win 1).blk t).view.emb (ix1 q) = (ix1 q : S128.Idx) := by
  obtain ⟨e0, e1, e2, e3, e4⟩ := idx_facts t
  funext a; apply Fin.ext
  match a with
  | ⟨0, _⟩ => show win3_1.index t (0 : Fin 1) * 128 + 1 * q.val = q.val; rw [e2]; omega

/-- Block `t` of the matrix operand, read at (p, q), is the array at row `5000·t + p`, column `q`. -/
theorem iblk_mat (c : Dev nD) (t : Fin cfg3.N) (p : Fin 5000) (q : Fin 128) :
    iblk3 V c 0 t (ix2 p q) = Yof V c (entry t p q) := by
  unfold iblk3
  rw [View.read_apply]
  show Yof V c (((cfg3.win 0).blk t).view.emb (ix2 p q)) = _
  rw [emb_in]

/-- Every point's block of the bias vector is the vector. -/
theorem iblk_bias (c : Dev nD) (t : Fin cfg3.N) (q : Fin 128) :
    iblk3 V c 1 t (ix1 q) = Bof V c (ix1 q) := by
  unfold iblk3
  rw [View.read_apply]
  show Bof V c (((cfg3.win 1).blk t).view.emb (ix1 q)) = _
  rw [emb_bias]

/-- What point `t` writes back is block `t` of the whole-array function. -/
theorem flushed_eq (c : Dev nD) (t : Fin cfg3.N) :
    (dat3 V c).flushed 2 t = ((cfg3.win 2).blk t).view.read (Elt Ideal) (rowBias relu (Yof V c) (Bof V c)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = rowBias relu (Yof V c) (Bof V c) (((cfg3.win 2).blk t).view.emb (ix2 p q))
  refine (pay_apply (iblk3 V c 0 t) (iblk3 V c 1 t) p q).trans ?_
  rw [iblk_mat, iblk_bias, emb_out]
  rfl

/-- An entry of the output array is in point `t`'s block iff its coordinates are in the block's ranges. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Every entry is in the block of the point its row falls in. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨e0, e1, e2, e3, e4⟩ := idx_facts t
  refine ⟨t, flush3_2 t, ?_⟩
  rw [mem_blk]
  intro a
  have ht : t.val = (i 0).val / 5000 := rfl
  match a with
  | ⟨0, _⟩ => show win3_2.index t (0 : Fin 2) * 5000 ≤ (i 0).val ∧ (i 0).val < win3_2.index t (0 : Fin 2) * 5000 + 5000; rw [e3]; omega
  | ⟨1, _⟩ => show win3_2.index t (1 : Fin 2) * 128 ≤ (i 1).val ∧ (i 1).val < win3_2.index t (1 : Fin 2) * 128 + 128; rw [e4]; omega

/-- The output array after the region. -/
theorem result (c : Dev nD) :
    (dat3 V c).arrAt 2 cfg3.N = rowBias relu (Yof V c) (Bof V c) :=
  (dat3 V c).arrAt_eq_of_cover 2 _ (fun t _ => flushed_eq V c t) cover

end Cert.KernelIdeal.Act2

end
-- ==== Proof.Head.lean ====
/-
  The fifth tile region: the three-layer head on the 64 pooled graph features, one grid point whose blocks are the
  whole arrays. Whatever the region finds in its seven input arrays, its output array ends holding `head` of them: a
  product and a bias row three times over, the logistic function after the first and the positive part after the second.
-/
import proofs.«112650_j56341380989304_1_alg».proof.Proof.Gen.KernelIdeal.Frame
import proofs.«112650_j56341380989304_1_alg».proof.Proof.Laws
import Idealize.ShloMosaic.Lib.Pipeline.Value
import Idealize.ShloMosaic.Lib.ValueIdx
import Idealize.ShloMosaic.PureOps.Ideal.Laws

set_option maxRecDepth 16384

noncomputable section

namespace Cert.KernelIdeal.Head

open Cert.KernelIdeal Cert.KernelIdeal.Gen Cert.GcnLaws
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The seven arrays the region finds: the pooled features, and each layer's weights and biases. -/
abbrev Pof (c : Dev nD) : S64x128.Idx → EReal := V c main_v71
abbrev W1of (c : Dev nD) : S128x64.Idx → EReal := V c main_arg5
abbrev b1of (c : Dev nD) : S64.Idx → EReal := V c main_arg6
abbrev W2of (c : Dev nD) : S64x16.Idx → EReal := V c main_arg7
abbrev b2of (c : Dev nD) : S16.Idx → EReal := V c main_arg8
abbrev W3of (c : Dev nD) : S16x1.Idx → EReal := V c main_arg9
abbrev b3of (c : Dev nD) : S1.Idx → EReal := V c main_arg10

theorem hz2 : (![0, 0] : Fin 2 → Nat) = fun _ => 0 := funext fun a => by fin_cases a <;> rfl
theorem hz1 : (![0] : Fin 1 → Nat) = fun _ => 0 := funext fun a => by fin_cases a <;> rfl

/-! ## The three tile contractions are the three products -/

theorem mm_first (X : S64x128.Idx → EReal) (W : S128x64.Idx → EReal) :
    matmul (F := Ideal) (φ₁ := .f32) (φ₂ := .f32) dot_S64x128_S128x64_S64x64_1_0_0_1_n_n none X W (constant S64x64 .f32 0x00000000#32) = mm X W := by
  funext i
  obtain ⟨r, c, rfl⟩ : ∃ (r : Fin 64) (c : Fin 64), i = ix2 r c := ⟨i 0, i 1, eq_ix2 i⟩
  refine (Ideal.matmul_constant_zero_apply dot_S64x128_S128x64_S64x64_1_0_0_1_n_n none X W (ix2 r c)).trans ?_
  exact mm_of_contraction dot_S64x128_S128x64_S64x64_1_0_0_1_n_n rfl rfl
    (fun i k => by
      unfold DotDims.lhsIdx
      rw [dif_neg (show ¬(0 : Fin S64x128.rank) ∈ dot_S64x128_S128x64_S64x64_1_0_0_1_n_n.lhsBatch by decide),
        dif_pos (show (0 : Fin S64x128.rank) ∈ dot_S64x128_S128x64_S64x64_1_0_0_1_n_n.lhsNonContracting by decide)]
      rfl)
    (fun i k => dot_S64x128_S128x64_S64x64_1_0_0_1_n_n.lhsIdx_val_of_single rfl i k)
    (fun i k => dot_S64x128_S128x64_S64x64_1_0_0_1_n_n.rhsIdx_val_of_single rfl i k)
    (fun i k => by
      unfold DotDims.rhsIdx
      rw [dif_neg (show ¬(1 : Fin S128x64.rank) ∈ dot_S64x128_S128x64_S64x64_1_0_0_1_n_n.rhsBatch by decide),
        dif_pos (show (1 : Fin S128x64.rank) ∈ dot_S64x128_S128x64_S64x64_1_0_0_1_n_n.rhsNonContracting by decide)]
      rfl)
    X W r c

theorem mm_second (X : S64x64.Idx → EReal) (W : S64x16.Idx → EReal) :
    matmul (F := Ideal) (φ₁ := .f32) (φ₂ := .f32) dot_S64x64_S64x16_S64x16_1_0_0_1_n_n none X W (constant S64x16 .f32 0x00000000#32) = mm X W := by
  funext i
  obtain ⟨r, c, rfl⟩ : ∃ (r : Fin 64) (c : Fin 16), i = ix2 r c := ⟨i 0, i 1, eq_ix2 i⟩
  refine (Ideal.matmul_constant_zero_apply dot_S64x64_S64x16_S64x16_1_0_0_1_n_n none X W (ix2 r c)).trans ?_
  exact mm_of_contraction dot_S64x64_S64x16_S64x16_1_0_0_1_n_n rfl rfl
    (fun i k => by
      unfold DotDims.lhsIdx
      rw [dif_neg (show ¬(0 : Fin S64x64.rank) ∈ dot_S64x64_S64x16_S64x16_1_0_0_1_n_n.lhsBatch by decide),
        dif_pos (show (0 : Fin S64x64.rank) ∈ dot_S64x64_S64x16_S64x16_1_0_0_1_n_n.lhsNonContracting by decide)]
      rfl)
    (fun i k => dot_S64x64_S64x16_S64x16_1_0_0_1_n_n.lhsIdx_val_of_single rfl i k)
    (fun i k => dot_S64x64_S64x16_S64x16_1_0_0_1_n_n.rhsIdx_val_of_single rfl i k)
    (fun i k => by
      unfold DotDims.rhsIdx
      rw [dif_neg (show ¬(1 : Fin S64x16.rank) ∈ dot_S64x64_S64x16_S64x16_1_0_0_1_n_n.rhsBatch by decide),
        dif_pos (show (1 : Fin S64x16.rank) ∈ dot_S64x64_S64x16_S64x16_1_0_0_1_n_n.rhsNonContracting by decide)]
      rfl)
    X W r c

theorem mm_third (X : S64x16.Idx → EReal) (W : S16x1.Idx → EReal) :
    matmul (F := Ideal) (φ₁ := .f32) (φ₂ := .f32) dot_S64x16_S16x1_S64x1_1_0_0_1_n_n none X W (constant S64x1 .f32 0x00000000#32) = mm X W := by
  funext i
  obtain ⟨r, c, rfl⟩ : ∃ (r : Fin 64) (c : Fin 1), i = ix2 r c := ⟨i 0, i 1, eq_ix2 i⟩
  refine (Ideal.matmul_constant_zero_apply dot_S64x16_S16x1_S64x1_1_0_0_1_n_n none X W (ix2 r c)).trans ?_
  exact mm_of_contraction dot_S64x16_S16x1_S64x1_1_0_0_1_n_n rfl rfl
    (fun i k => by
      unfold DotDims.lhsIdx
      rw [dif_neg (show ¬(0 : Fin S64x16.rank) ∈ dot_S64x16_S16x1_S64x1_1_0_0_1_n_n.lhsBatch by decide),
        dif_pos (show (0 : Fin S64x16.rank) ∈ dot_S64x16_S16x1_S64x1_1_0_0_1_n_n.lhsNonContracting by decide)]
      rfl)
    (fun i k => dot_S64x16_S16x1_S64x1_1_0_0_1_n_n.lhsIdx_val_of_single rfl i k)
    (fun i k => dot_S64x16_S16x1_S64x1_1_0_0_1_n_n.rhsIdx_val_of_single rfl i k)
    (fun i k => by
      unfold DotDims.rhsIdx
      rw [dif_neg (show ¬(1 : Fin S16x1.rank) ∈ dot_S64x16_S16x1_S64x1_1_0_0_1_n_n.rhsBatch by decide),
        dif_pos (show (1 : Fin S16x1.rank) ∈ dot_S64x16_S16x1_S64x1_1_0_0_1_n_n.rhsNonContracting by decide)]
      rfl)
    X W r c

/-- The body's arithmetic is the head. -/
theorem pay_eq (x0 : S64x128.Idx → EReal) (x1 : S128x64.Idx → EReal) (x2 : S64.Idx → EReal) (x3 : S64x16.Idx → EReal)
    (x4 : S16.Idx → EReal) (x5 : S16x1.Idx → EReal) (x6 : S1.Idx → EReal) :
    k4_pay1 (F := Ideal) x0 x1 x2 x3 x4 x5 x6 = head x0 x1 x2 x3 x4 x5 x6 := by
  unfold k4_pay1 head
  simp only [shapeCast_self]
  rw [mm_first, tile_sigm, mm_second, tile_relu, mm_third, tile_bias]

/-! ## The one point's blocks are the arrays -/

theorem idx_facts : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 2) = 0
    ∧ win4_5.index t (1 : Fin 2) = 0
    ∧ win4_6.index t (0 : Fin 1) = 0
    ∧ win4_7.index t (0 : Fin 2) = 0
    ∧ win4_7.index t (1 : Fin 2) = 0 :=
  (by decide +kernel : ∀ t : Fin grid4.N, _)

theorem emb_0 (t : Fin cfg4.N) (p : Fin 64) (q : Fin 128) :
    ((cfg4.win 0).blk t).view.emb (ix2 p q) = (ix2 p q : S64x128.Idx) := by
  obtain ⟨e0, e1, e2, e3, e4, e5, e6, e7, e8, e9, e10, e11, e12⟩ := idx_facts t
  funext a; apply Fin.ext
  match a with
  | ⟨0, _⟩ => show win4_0.index t (0 : Fin 2) * 64 + 1 * p.val = p.val; rw [e0]; omega
  | ⟨1, _⟩ => show win4_0.index t (1 : Fin 2) * 128 + 1 * q.val = q.val; rw [e1]; omega

theorem emb_1 (t : Fin cfg4.N) (p : Fin 128) (q : Fin 64) :
    ((cfg4.win 1).blk t).view.emb (ix2 p q) = (ix2 p q : S128x64.Idx) := by
  obtain ⟨e0, e1, e2, e3, e4, e5, e6, e7, e8, e9, e10, e11, e12⟩ := idx_facts t
  funext a; apply Fin.ext
  match a with
  | ⟨0, _⟩ => show win4_1.index t (0 : Fin 2) * 128 + 1 * p.val = p.val; rw [e2]; omega
  | ⟨1, _⟩ => show win4_1.index t (1 : Fin 2) * 64 + 1 * q.val = q.val; rw [e3]; omega

theorem emb_2 (t : Fin cfg4.N) (p : Fin 64) :
    ((cfg4.win 2).blk t).view.emb (ix1 p) = (ix1 p : S64.Idx) := by
  obtain ⟨e0, e1, e2, e3, e4, e5, e6, e7, e8, e9, e10, e11, e12⟩ := idx_facts t
  funext a; apply Fin.ext
  match a with
  | ⟨0, _⟩ => show win4_2.index t (0 : Fin 1) * 64 + 1 * p.val = p.val; rw [e4]; omega

theorem emb_3 (t : Fin cfg4.N) (p : Fin 64) (q : Fin 16) :
    ((cfg4.win 3).blk t).view.emb (ix2 p q) = (ix2 p q : S64x16.Idx) := by
  obtain ⟨e0, e1, e2, e3, e4, e5, e6, e7, e8, e9, e10, e11, e12⟩ := idx_facts t
  funext a; apply Fin.ext
  match a with
  | ⟨0, _⟩ => show win4_3.index t (0 : Fin 2) * 64 + 1 * p.val = p.val; rw [e5]; omega
  | ⟨1, _⟩ => show win4_3.index t (1 : Fin 2) * 16 + 1 * q.val = q.val; rw [e6]; omega

theorem emb_4 (t : Fin cfg4.N) (p : Fin 16) :
    ((cfg4.win 4).blk t).view.emb (ix1 p) = (ix1 p : S16.Idx) := by
  obtain ⟨e0, e1, e2, e3, e4, e5, e6, e7, e8, e9, e10, e11, e12⟩ := idx_facts t
  funext a; apply Fin.ext
  match a with
  | ⟨0, _⟩ => show win4_4.index t (0 : Fin 1) * 16 + 1 * p.val = p.val; rw [e7]; omega

theorem emb_5 (t : Fin cfg4.N) (p : Fin 16) (q : Fin 1) :
    ((cfg4.win 5).blk t).view.emb (ix2 p q) = (ix2 p q : S16x1.Idx) := by
  obtain ⟨e0, e1, e2, e3, e4, e5, e6, e7, e8, e9, e10, e11, e12⟩ := idx_facts t
  funext a; apply Fin.ext
  match a with
  | ⟨0, _⟩ => show win4_5.index t (0 : Fin 2) * 16 + 1 * p.val = p.val; rw [e8]; omega
  | ⟨1, _⟩ => show win4_5.index t (1 : Fin 2) * 1 + 1 * q.val = q.val; rw [e9]; omega

theorem emb_6 (t : Fin cfg4.N) (p : Fin 1) :
    ((cfg4.win 6).blk t).view.emb (ix1 p) = (ix1 p : S1.Idx) := by
  obtain ⟨e0, e1, e2, e3, e4, e5, e6, e7, e8, e9, e10, e11, e12⟩ := idx_facts t
  funext a; apply Fin.ext
  match a with
  | ⟨0, _⟩ => show win4_6.index t (0 : Fin 1) * 1 + 1 * p.val = p.val; rw [e10]; omega

theorem emb_7 (t : Fin cfg4.N) (p : Fin 64) (q : Fin 1) :
    ((cfg4.win 7).blk t).view.emb (ix2 p q) = (ix2 p q : S64x1.Idx) := by
  obtain ⟨e0, e1, e2, e3, e4, e5, e6, e7, e8, e9, e10, e11, e12⟩ := idx_facts t
  funext a; apply Fin.ext
  match a with
  | ⟨0, _⟩ => show win4_7.index t (0 : Fin 2) * 64 + 1 * p.val = p.val; rw [e11]; omega
  | ⟨1, _⟩ => show win4_7.index t (1 : Fin 2) * 1 + 1 * q.val = q.val; rw [e12]; omega

theorem iblk_0 (c : Dev nD) (t : Fin cfg4.N) : (iblk4 V c 0 t : S64x128.Idx → EReal) = Pof V c := by
  funext j
  obtain ⟨p, q, rfl⟩ : ∃ (p : Fin 64) (q : Fin 128), j = ix2 p q := ⟨j 0, j 1, eq_ix2 j⟩
  unfold iblk4
  rw [View.read_apply]
  show Pof V c (((cfg4.win 0).blk t).view.emb (ix2 p q)) = _
  rw [emb_0]

theorem iblk_1 (c : Dev nD) (t : Fin cfg4.N) : (iblk4 V c 1 t : S128x64.Idx → EReal) = W1of V c := by
  funext j
  obtain ⟨p, q, rfl⟩ : ∃ (p : Fin 128) (q : Fin 64), j = ix2 p q := ⟨j 0, j 1, eq_ix2 j⟩
  unfold iblk4
  rw [View.read_apply]
  show W1of V c (((cfg4.win 1).blk t).view.emb (ix2 p q)) = _
  rw [emb_1]

theorem iblk_2 (c : Dev nD) (t : Fin cfg4.N) : (iblk4 V c 2 t : S64.Idx → EReal) = b1of V c := by
  funext j
  obtain ⟨p, rfl⟩ : ∃ (p : Fin 64), j = ix1 p := ⟨j 0, eq_ix1 j⟩
  unfold iblk4
  rw [View.read_apply]
  show b1of V c (((cfg4.win 2).blk t).view.emb (ix1 p)) = _
  rw [emb_2]

theorem iblk_3 (c : Dev nD) (t : Fin cfg4.N) : (iblk4 V c 3 t : S64x16.Idx → EReal) = W2of V c := by
  funext j
  obtain ⟨p, q, rfl⟩ : ∃ (p : Fin 64) (q : Fin 16), j = ix2 p q := ⟨j 0, j 1, eq_ix2 j⟩
  unfold iblk4
  rw [View.read_apply]
  show W2of V c (((cfg4.win 3).blk t).view.emb (ix2 p q)) = _
  rw [emb_3]

theorem iblk_4 (c : Dev nD) (t : Fin cfg4.N) : (iblk4 V c 4 t : S16.Idx → EReal) = b2of V c := by
  funext j
  obtain ⟨p, rfl⟩ : ∃ (p : Fin 16), j = ix1 p := ⟨j 0, eq_ix1 j⟩
  unfold iblk4
  rw [View.read_apply]
  show b2of V c (((cfg4.win 4).blk t).view.emb (ix1 p)) = _
  rw [emb_4]

theorem iblk_5 (c : Dev nD) (t : Fin cfg4.N) : (iblk4 V c 5 t : S16x1.Idx → EReal) = W3of V c := by
  funext j
  obtain ⟨p, q, rfl⟩ : ∃ (p : Fin 16) (q : Fin 1), j = ix2 p q := ⟨j 0, j 1, eq_ix2 j⟩
  unfold iblk4
  rw [View.read_apply]
  show W3of V c (((cfg4.win 5).blk t).view.emb (ix2 p q)) = _
  rw [emb_5]

theorem iblk_6 (c : Dev nD) (t : Fin cfg4.N) : (iblk4 V c 6 t : S1.Idx → EReal) = b3of V c := by
  funext j
  obtain ⟨p, rfl⟩ : ∃ (p : Fin 1), j = ix1 p := ⟨j 0, eq_ix1 j⟩
  unfold iblk4
  rw [View.read_apply]
  show b3of V c (((cfg4.win 6).blk t).view.emb (ix1 p)) = _
  rw [emb_6]

/-- What the one point writes back is the head of the arrays, read through the whole-array block. -/
theorem flushed_eq (c : Dev nD) (t : Fin cfg4.N) :
    (dat4 V c).flushed 7 t = ((cfg4.win 7).blk t).view.read (Elt Ideal)
      (head (Pof V c) (W1of V c) (b1of V c) (W2of V c) (b2of V c) (W3of V c) (b3of V c)) := by
  show (cfg4.win 7).cut (grid4.coords t) ((dat4 V c).after 7 t) = _
  rw [after4_7]
  unfold out4_7
  rw [View.canon_unit_zero hz2]
  simp only [View.ld_unit_zero (S := S64x128) hz2, View.ld_unit_zero (S := S128x64) hz2, View.ld_unit_zero (S := S64) hz1,
    View.ld_unit_zero (S := S64x16) hz2, View.ld_unit_zero (S := S16) hz1, View.ld_unit_zero (S := S16x1) hz2,
    View.ld_unit_zero (S := S1) hz1]
  funext j
  obtain ⟨p, q, rfl⟩ : ∃ (p : Fin 64) (q : Fin 1), j = ix2 p q := ⟨j 0, j 1, eq_ix2 j⟩
  show k4_pay1 (iblk4 V c 0 t) (iblk4 V c 1 t) (iblk4 V c 2 t) (iblk4 V c 3 t) (iblk4 V c 4 t) (iblk4 V c 5 t) (iblk4 V c 6 t) (ix2 p q)
    = head (Pof V c) (W1of V c) (b1of V c) (W2of V c) (b2of V c) (W3of V c) (b3of V c) (((cfg4.win 7).blk t).view.emb (ix2 p q))
  rw [emb_7, iblk_0, iblk_1, iblk_2, iblk_3, iblk_4, iblk_5, iblk_6, pay_eq]

theorem mem_blk (t : Fin cfg4.N) (i : S64x1.Idx) :
    i ∈ ((cfg4.win 7).blk t).view.set ↔ ∀ a : Fin 2, win4_7.index t a * S64x1.size a ≤ (i a).val ∧ (i a).val < win4_7.index t a * S64x1.size a + S64x1.size a := by
  show i ∈ ((View.whole main_v72).slice (win4_7.rect t)).set ↔ _
  rw [View.set_slice_whole, Rect.mem_set_unit]
  exact Iff.rfl

/-- The one block is the whole output array. -/
theorem cover (i : S64x1.Idx) : ∃ t : Fin cfg4.N, (cfg4.win 7).flush t = true ∧ i ∈ ((cfg4.win 7).blk t).view.set := by
  have hi0 : (i 0).val < 64 := (i 0).isLt
  have hi1 : (i 1).val < 1 := (i 1).isLt
  obtain ⟨e0, e1, e2, e3, e4, e5, e6, e7, e8, e9, e10, e11, e12⟩ := idx_facts t4_0
  refine ⟨t4_0, flush4_7 t4_0, ?_⟩
  rw [mem_blk]
  intro a
  match a with
  | ⟨0, _⟩ => show win4_7.index t4_0 (0 : Fin 2) * 64 ≤ (i 0).val ∧ (i 0).val < win4_7.index t4_0 (0 : Fin 2) * 64 + 64; rw [e11]; omega
  | ⟨1, _⟩ => show win4_7.index t4_0 (1 : Fin 2) * 1 ≤ (i 1).val ∧ (i 1).val < win4_7.index t4_0 (1 : Fin 2) * 1 + 1; rw [e12]; omega

/-- The output array after the region. -/
theorem result (c : Dev nD) :
    (dat4 V c).arrAt 7 cfg4.N = head (Pof V c) (W1of V c) (b1of V c) (W2of V c) (b2of V c) (W3of V c) (b3of V c) :=
  (dat4 V c).arrAt_eq_of_cover 7 _ (fun t _ => flushed_eq V c t) cover

end Cert.KernelIdeal.Head

end
-- ==== Proof.Fold.lean ====
/-
  The idealized kernel's result as one function of its arguments. Its run is a fold of the buffer contents through
  eleven segments. An argument is written by no segment, so it holds its launch contents at every boundary. The index
  arrays and the message weights are computed before the first tile region and written by nothing after it, so the two
  aggregations read the same arrays. Each tile region leaves its whole-array function of what it finds (the four
  modules of the regions), and each stretch of array operations between regions leaves the aggregation, or the pooling,
  of what it finds. Composed, the result buffer ends holding `model` of the arguments.
-/
import proofs.«112650_j56341380989304_1_alg».proof.Proof.Gen.KernelIdeal.Frame
import proofs.«112650_j56341380989304_1_alg».proof.Proof.Glue
import proofs.«112650_j56341380989304_1_alg».proof.Proof.Laws
import proofs.«112650_j56341380989304_1_alg».proof.Proof.Lin1
import proofs.«112650_j56341380989304_1_alg».proof.Proof.Act1
import proofs.«112650_j56341380989304_1_alg».proof.Proof.Lin2
import proofs.«112650_j56341380989304_1_alg».proof.Proof.Act2
import proofs.«112650_j56341380989304_1_alg».proof.Proof.Head
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Glue Cert.GcnLaws
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of array operations leaves a buffer it does not write as it found it. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments hold their launch contents at every boundary -/

def IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12

theorem a1 {b : Ref sig .tc} (h : IsArg b) : W1 m ρ c (Proc.devRef .tc b) = W0 m ρ c (Proc.devRef .tc b) := by
  rcases h with rfl | rfl | rfl | rfl | rfl | rfl | rfl | rfl | rfl | rfl | rfl | rfl | rfl <;> keeps hostOps0
theorem a2 {b : Ref sig .tc} (h : IsArg b) : W2 m ρ c (Proc.devRef .tc b) = W1 m ρ c (Proc.devRef .tc b) := by
  rcases h with rfl | rfl | rfl | rfl | rfl | rfl | rfl | rfl | rfl | rfl | rfl | rfl | rfl <;> keeps hostOps0_1
theorem a3 {b : Ref sig .tc} (h : IsArg b) : W3 m ρ c (Proc.devRef .tc b) = W2 m ρ c (Proc.devRef .tc b) := by
  rcases h with rfl | rfl | rfl | rfl | rfl | rfl | rfl | rfl | rfl | rfl | rfl | rfl | rfl <;> keeps hostOps0_2
theorem a4 {b : Ref sig .tc} (h : IsArg b) : W4 m ρ c (Proc.devRef .tc b) = W3 m ρ c (Proc.devRef .tc b) := by
  rcases h with rfl | rfl | rfl | rfl | rfl | rfl | rfl | rfl | rfl | rfl | rfl | rfl | rfl <;>
    first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
theorem a5 {b : Ref sig .tc} (h : IsArg b) : W5 m ρ c (Proc.devRef .tc b) = W4 m ρ c (Proc.devRef .tc b) := by
  rcases h with rfl | rfl | rfl | rfl | rfl | rfl | rfl | rfl | rfl | rfl | rfl | rfl | rfl <;> keeps hostOps1
theorem a6 {b : Ref sig .tc} (h : IsArg b) : W6 m ρ c (Proc.devRef .tc b) = W5 m ρ c (Proc.devRef .tc b) := by
  rcases h with rfl | rfl | rfl | rfl | rfl | rfl | rfl | rfl | rfl | rfl | rfl | rfl | rfl <;>
    first
    | exact W6_of_ne m ρ c _ (by decide)
    | exact (W6_arr m ρ c 1).trans (((dat1 (V5 m ρ) c).arrAt_in 1 rfl _).trans (A_eq1 (V5 m ρ) c 1))
theorem a7 {b : Ref sig .tc} (h : IsArg b) : W7 m ρ c (Proc.devRef .tc b) = W6 m ρ c (Proc.devRef .tc b) := by
  rcases h with rfl | rfl | rfl | rfl | rfl | rfl | rfl | rfl | rfl | rfl | rfl | rfl | rfl <;>
    first
    | exact W7_of_ne m ρ c _ (by decide)
    | exact (W7_arr m ρ c 1).trans (((dat2 (V6 m ρ) c).arrAt_in 1 rfl _).trans (A_eq2 (V6 m ρ) c 1))
theorem a8 {b : Ref sig .tc} (h : IsArg b) : W8 m ρ c (Proc.devRef .tc b) = W7 m ρ c (Proc.devRef .tc b) := by
  rcases h with rfl | rfl | rfl | rfl | rfl | rfl | rfl | rfl | rfl | rfl | rfl | rfl | rfl <;> keeps hostOps3
theorem a9 {b : Ref sig .tc} (h : IsArg b) : W9 m ρ c (Proc.devRef .tc b) = W8 m ρ c (Proc.devRef .tc b) := by
  rcases h with rfl | rfl | rfl | rfl | rfl | rfl | rfl | rfl | rfl | rfl | rfl | rfl | rfl <;>
    first
    | exact W9_of_ne m ρ c _ (by decide)
    | exact (W9_arr m ρ c 1).trans (((dat3 (V8 m ρ) c).arrAt_in 1 rfl _).trans (A_eq3 (V8 m ρ) c 1))
theorem a10 {b : Ref sig .tc} (h : IsArg b) : W10 m ρ c (Proc.devRef .tc b) = W9 m ρ c (Proc.devRef .tc b) := by
  rcases h with rfl | rfl | rfl | rfl | rfl | rfl | rfl | rfl | rfl | rfl | rfl | rfl | rfl <;> keeps hostOps4

theorem argAt3 {b : Ref sig .tc} (h : IsArg b) : W3 m ρ c (Proc.devRef .tc b) = m ((c : Thread nD τ).loc b) :=
  (a3 m ρ c h).trans ((a2 m ρ c h).trans ((a1 m ρ c h).trans rfl))
theorem argAt5 {b : Ref sig .tc} (h : IsArg b) : W5 m ρ c (Proc.devRef .tc b) = m ((c : Thread nD τ).loc b) :=
  (a5 m ρ c h).trans ((a4 m ρ c h).trans (argAt3 m ρ c h))
theorem argAt6 {b : Ref sig .tc} (h : IsArg b) : W6 m ρ c (Proc.devRef .tc b) = m ((c : Thread nD τ).loc b) :=
  (a6 m ρ c h).trans (argAt5 m ρ c h)
theorem argAt8 {b : Ref sig .tc} (h : IsArg b) : W8 m ρ c (Proc.devRef .tc b) = m ((c : Thread nD τ).loc b) :=
  (a8 m ρ c h).trans ((a7 m ρ c h).trans (argAt6 m ρ c h))
theorem argAt9 {b : Ref sig .tc} (h : IsArg b) : W9 m ρ c (Proc.devRef .tc b) = m ((c : Thread nD τ).loc b) :=
  (a9 m ρ c h).trans (argAt8 m ρ c h)
theorem argAt10 {b : Ref sig .tc} (h : IsArg b) : W10 m ρ c (Proc.devRef .tc b) = m ((c : Thread nD τ).loc b) :=
  (a10 m ρ c h).trans (argAt9 m ρ c h)

/-! ## The index arrays and the weights, computed before the first region, are what the aggregations read -/

/-- The edge list as launched. -/
abbrev edges : I32 Ideal S2x800000 := m ((c : Thread nD τ).loc main_arg11)

theorem src1 : W1 m ρ c (Proc.devRef .tc main_v3) = srcOf (F := Ideal) (edges m c) := by
  show StableHlo.after hostOps0 (W0 m ρ c) (Proc.devRef .tc main_v3) = _
  after_results
  rfl
theorem dst1 : W1 m ρ c (Proc.devRef .tc main_v6) = dstOf (F := Ideal) (edges m c) := by
  show StableHlo.after hostOps0 (W0 m ρ c) (Proc.devRef .tc main_v6) = _
  after_results
  rfl
theorem src2 : W2 m ρ c (Proc.devRef .tc main_v3) = srcOf (F := Ideal) (edges m c) :=
  (show W2 m ρ c (Proc.devRef .tc main_v3) = W1 m ρ c (Proc.devRef .tc main_v3) by keeps hostOps0_1).trans (src1 m ρ c)
theorem dst2 : W2 m ρ c (Proc.devRef .tc main_v6) = dstOf (F := Ideal) (edges m c) :=
  (show W2 m ρ c (Proc.devRef .tc main_v6) = W1 m ρ c (Proc.devRef .tc main_v6) by keeps hostOps0_1).trans (dst1 m ρ c)
theorem src3 : W3 m ρ c (Proc.devRef .tc main_v3) = srcOf (F := Ideal) (edges m c) :=
  (show W3 m ρ c (Proc.devRef .tc main_v3) = W2 m ρ c (Proc.devRef .tc main_v3) by keeps hostOps0_2).trans (src2 m ρ c)
theorem dst3 : W3 m ρ c (Proc.devRef .tc main_v6) = dstOf (F := Ideal) (edges m c) :=
  (show W3 m ρ c (Proc.devRef .tc main_v6) = W2 m ρ c (Proc.devRef .tc main_v6) by keeps hostOps0_2).trans (dst2 m ρ c)

/-- The three buffers the first stretch leaves for the select that makes the inverse square roots of the degrees. -/
theorem gt1 : W1 m ρ c (Proc.devRef .tc main_v12) = cmpf (F := Ideal) .ogt
      (Host.scatterAdd scatter_S50000_S850000x1_S850000_n_0_0_1 (broadcastInDim S50000 ![] bcast_S_S50000 (constant S_ .f32 0x00000000#32)) (broadcastInDim S850000x1 ![0] bcast_S850000_S850000x1_0 (dstOf (F := Ideal) (edges m c))) (broadcastInDim S850000 ![] bcast_S_S850000 (constant S_ .f32 0x3F800000#32)))
      (broadcastInDim S50000 ![] bcast_S_S50000 (constant S_ .f32 0x00000000#32)) := by
  show StableHlo.after hostOps0 (W0 m ρ c) (Proc.devRef .tc main_v12) = _
  after_results
  rfl
theorem rs1 : W1 m ρ c (Proc.devRef .tc main_v13) = Host.rsqrt (F := Ideal)
      (Host.scatterAdd scatter_S50000_S850000x1_S850000_n_0_0_1 (broadcastInDim S50000 ![] bcast_S_S50000 (constant S_ .f32 0x00000000#32)) (broadcastInDim S850000x1 ![0] bcast_S850000_S850000x1_0 (dstOf (F := Ideal) (edges m c))) (broadcastInDim S850000 ![] bcast_S_S850000 (constant S_ .f32 0x3F800000#32))) := by
  show StableHlo.after hostOps0 (W0 m ρ c) (Proc.devRef .tc main_v13) = _
  after_results
  rfl
theorem z1 : W1 m ρ c (Proc.devRef .tc main_cst_2) = constant (F := Ideal) S_ .f32 0x00000000#32 := by
  show StableHlo.after hostOps0 (W0 m ρ c) (Proc.devRef .tc main_cst_2) = _
  after_results <;> rfl

set_option maxHeartbeats 4000000 in
/-- The select of the second stretch, over any contents of the three buffers it reads. -/
theorem dinv_of (W : Valuation τ sig (Elt Ideal)) (X : (⟨S50000, .i1⟩ : BufTy).Contents (Elt Ideal)) (R : F32 Ideal S50000)
    (Z : F32 Ideal S_) (hgt : W (Proc.devRef .tc main_v12) = X) (hrs : W (Proc.devRef .tc main_v13) = R)
    (hz : W (Proc.devRef .tc main_cst_2) = Z) :
    StableHlo.after hostOps0_1 W (Proc.devRef .tc main_v14) = select X R (broadcastInDim S50000 ![] bcast_S_S50000 (id Z)) := by
  after_results
  rw [hgt, hrs, hz]
  rfl

theorem dinv2 : W2 m ρ c (Proc.devRef .tc main_v14) = dinvOf (F := Ideal) (edges m c) :=
  (dinv_of (W1 m ρ c) _ _ _ (gt1 m ρ c) (rs1 m ρ c) (z1 m ρ c)).trans (by unfold dinvOf; rfl)

set_option maxHeartbeats 4000000 in
/-- The weights of the third stretch, over any contents of the buffers it reads. -/
theorem norm_of (W : Valuation τ sig (Elt Ideal)) (e : I32 Ideal S2x800000)
    (hd : W (Proc.devRef .tc main_v14) = dinvOf (F := Ideal) e) (hs : W (Proc.devRef .tc main_v3) = srcOf (F := Ideal) e)
    (ht : W (Proc.devRef .tc main_v6) = dstOf (F := Ideal) e) :
    StableHlo.after hostOps0_2 W (Proc.devRef .tc main_v29) = normOf (F := Ideal) e := by
  after_results
  rw [hd, hs, ht]
  rfl

theorem norm3 : W3 m ρ c (Proc.devRef .tc main_v29) = normOf (F := Ideal) (edges m c) :=
  norm_of (W2 m ρ c) (edges m c) (dinv2 m ρ c) (src2 m ρ c) (dst2 m ρ c)

def IsCarried (b : Ref sig .tc) : Prop := b = main_v3 ∨ b = main_v6 ∨ b = main_v29

theorem c4 {b : Ref sig .tc} (h : IsCarried b) : W4 m ρ c (Proc.devRef .tc b) = W3 m ρ c (Proc.devRef .tc b) := by
  rcases h with rfl | rfl | rfl <;> exact W4_of_ne m ρ c _ (by decide)
theorem c5 {b : Ref sig .tc} (h : IsCarried b) : W5 m ρ c (Proc.devRef .tc b) = W4 m ρ c (Proc.devRef .tc b) := by
  rcases h with rfl | rfl | rfl <;> keeps hostOps1
theorem c6 {b : Ref sig .tc} (h : IsCarried b) : W6 m ρ c (Proc.devRef .tc b) = W5 m ρ c (Proc.devRef .tc b) := by
  rcases h with rfl | rfl | rfl <;> exact W6_of_ne m ρ c _ (by decide)
theorem c7 {b : Ref sig .tc} (h : IsCarried b) : W7 m ρ c (Proc.devRef .tc b) = W6 m ρ c (Proc.devRef .tc b) := by
  rcases h with rfl | rfl | rfl <;> exact W7_of_ne m ρ c _ (by decide)
theorem carried7 {b : Ref sig .tc} (h : IsCarried b) : W7 m ρ c (Proc.devRef .tc b) = W3 m ρ c (Proc.devRef .tc b) :=
  (c7 m ρ c h).trans ((c6 m ρ c h).trans ((c5 m ρ c h).trans (c4 m ρ c h)))

/-! ## The stretches between the regions, over any contents of the buffers they read -/

set_option maxHeartbeats 4000000 in
theorem agg_first (W : Valuation τ sig (Elt Ideal)) (xw : F32 Ideal S50000x128) (e : I32 Ideal S2x800000)
    (hx : W (Proc.devRef .tc main_v30) = xw) (hs : W (Proc.devRef .tc main_v3) = srcOf (F := Ideal) e)
    (ht : W (Proc.devRef .tc main_v6) = dstOf (F := Ideal) e) (hn : W (Proc.devRef .tc main_v29) = normOf (F := Ideal) e) :
    StableHlo.after hostOps1 W (Proc.devRef .tc main_v43) = agg (F := Ideal) xw e := by
  after_results
  rw [hx, hs, ht, hn]
  rfl

set_option maxHeartbeats 4000000 in
theorem agg_second (W : Valuation τ sig (Elt Ideal)) (xw : F32 Ideal S50000x128) (e : I32 Ideal S2x800000)
    (hx : W (Proc.devRef .tc main_v45) = xw) (hs : W (Proc.devRef .tc main_v3) = srcOf (F := Ideal) e)
    (ht : W (Proc.devRef .tc main_v6) = dstOf (F := Ideal) e) (hn : W (Proc.devRef .tc main_v29) = normOf (F := Ideal) e) :
    StableHlo.after hostOps3 W (Proc.devRef .tc main_v58) = agg (F := Ideal) xw e := by
  after_results
  rw [hx, hs, ht, hn]
  rfl

set_option maxHeartbeats 4000000 in
theorem pool_of (W : Valuation τ sig (Elt Ideal)) (h : F32 Ideal S50000x128) (b : I32 Ideal S50000)
    (hh : W (Proc.devRef .tc main_v59) = h) (hb : W (Proc.devRef .tc main_arg12) = b) :
    StableHlo.after hostOps4 W (Proc.devRef .tc main_v71) = pool (F := Ideal) h b := by
  after_results
  rw [hh, hb]
  rfl

/-! ## The stages -/

theorem isArg0 : IsArg main_arg0 := Or.inl rfl
theorem isArg1 : IsArg main_arg1 := Or.inr (Or.inl rfl)
theorem isArg2 : IsArg main_arg2 := Or.inr (Or.inr (Or.inl rfl))
theorem isArg3 : IsArg main_arg3 := Or.inr (Or.inr (Or.inr (Or.inl rfl)))
theorem isArg4 : IsArg main_arg4 := Or.inr (Or.inr (Or.inr (Or.inr (Or.inl rfl))))
theorem isArg5 : IsArg main_arg5 := Or.inr (Or.inr (Or.inr (Or.inr (Or.inr (Or.inl rfl)))))
theorem isArg6 : IsArg main_arg6 := Or.inr (Or.inr (Or.inr (Or.inr (Or.inr (Or.inr (Or.inl rfl))))))
theorem isArg7 : IsArg main_arg7 := Or.inr (Or.inr (Or.inr (Or.inr (Or.inr (Or.inr (Or.inr (Or.inl rfl)))))))
theorem isArg8 : IsArg main_arg8 := Or.inr (Or.inr (Or.inr (Or.inr (Or.inr (Or.inr (Or.inr (Or.inr (Or.inl rfl))))))))
theorem isArg9 : IsArg main_arg9 := Or.inr (Or.inr (Or.inr (Or.inr (Or.inr (Or.inr (Or.inr (Or.inr (Or.inr (Or.inl rfl)))))))))
theorem isArg10 : IsArg main_arg10 := Or.inr (Or.inr (Or.inr (Or.inr (Or.inr (Or.inr (Or.inr (Or.inr (Or.inr (Or.inr (Or.inl rfl))))))))))
theorem isArg11 : IsArg main_arg11 := Or.inr (Or.inr (Or.inr (Or.inr (Or.inr (Or.inr (Or.inr (Or.inr (Or.inr (Or.inr (Or.inr (Or.inl rfl)))))))))))
theorem isArg12 : IsArg main_arg12 := Or.inr (Or.inr (Or.inr (Or.inr (Or.inr (Or.inr (Or.inr (Or.inr (Or.inr (Or.inr (Or.inr (Or.inr (rfl))))))))))))

/-- The arguments as launched. -/
abbrev A0 : F32 Ideal S50000x128 := m ((c : Thread nD τ).loc main_arg0)
abbrev A1 : F32 Ideal S128x128 := m ((c : Thread nD τ).loc main_arg1)
abbrev A2 : F32 Ideal S128 := m ((c : Thread nD τ).loc main_arg2)
abbrev A3 : F32 Ideal S128x128 := m ((c : Thread nD τ).loc main_arg3)
abbrev A4 : F32 Ideal S128 := m ((c : Thread nD τ).loc main_arg4)
abbrev A5 : F32 Ideal S128x64 := m ((c : Thread nD τ).loc main_arg5)
abbrev A6 : F32 Ideal S64 := m ((c : Thread nD τ).loc main_arg6)
abbrev A7 : F32 Ideal S64x16 := m ((c : Thread nD τ).loc main_arg7)
abbrev A8 : F32 Ideal S16 := m ((c : Thread nD τ).loc main_arg8)
abbrev A9 : F32 Ideal S16x1 := m ((c : Thread nD τ).loc main_arg9)
abbrev A10 : F32 Ideal S1 := m ((c : Thread nD τ).loc main_arg10)
abbrev A12 : I32 Ideal S50000 := m ((c : Thread nD τ).loc main_arg12)

/-- The value after each tile region and each aggregation, in program order. -/
abbrev s30 : F32 Ideal S50000x128 := mm (A0 m c) (A1 m c)
abbrev s43 : F32 Ideal S50000x128 := agg (F := Ideal) (s30 m c) (edges m c)
abbrev s44 : F32 Ideal S50000x128 := rowBias sigm (s43 m c) (A2 m c)
abbrev s45 : F32 Ideal S50000x128 := mm (s44 m c) (A3 m c)
abbrev s58 : F32 Ideal S50000x128 := agg (F := Ideal) (s45 m c) (edges m c)
abbrev s59 : F32 Ideal S50000x128 := rowBias relu (s58 m c) (A4 m c)
abbrev s71 : F32 Ideal S64x128 := pool (F := Ideal) (s59 m c) (A12 m c)

theorem st30 : W4 m ρ c (Proc.devRef .tc main_v30) = s30 m c := by
  refine (W4_arr m ρ c 2).trans ((Lin1.result (V3 m ρ) c).trans ?_)
  show mm (W3 m ρ c (Proc.devRef .tc main_arg0)) (W3 m ρ c (Proc.devRef .tc main_arg1)) = _
  rw [argAt3 m ρ c isArg0, argAt3 m ρ c isArg1]

theorem st43 : W5 m ρ c (Proc.devRef .tc main_v43) = s43 m c := by
  exact agg_first (W4 m ρ c) (s30 m c) (edges m c) (st30 m ρ c) ((c4 m ρ c (Or.inl rfl)).trans (src3 m ρ c))
    ((c4 m ρ c (Or.inr (Or.inl rfl))).trans (dst3 m ρ c)) ((c4 m ρ c (Or.inr (Or.inr rfl))).trans (norm3 m ρ c))

theorem st44 : W6 m ρ c (Proc.devRef .tc main_v44) = s44 m c := by
  refine (W6_arr m ρ c 2).trans ((Act1.result (V5 m ρ) c).trans ?_)
  show rowBias sigm (W5 m ρ c (Proc.devRef .tc main_v43)) (W5 m ρ c (Proc.devRef .tc main_arg2)) = _
  rw [st43, argAt5 m ρ c isArg2]

theorem st45 : W7 m ρ c (Proc.devRef .tc main_v45) = s45 m c := by
  refine (W7_arr m ρ c 2).trans ((Lin2.result (V6 m ρ) c).trans ?_)
  show mm (W6 m ρ c (Proc.devRef .tc main_v44)) (W6 m ρ c (Proc.devRef .tc main_arg3)) = _
  rw [st44, argAt6 m ρ c isArg3]

theorem st58 : W8 m ρ c (Proc.devRef .tc main_v58) = s58 m c := by
  exact agg_second (W7 m ρ c) (s45 m c) (edges m c) (st45 m ρ c) ((carried7 m ρ c (Or.inl rfl)).trans (src3 m ρ c))
    ((carried7 m ρ c (Or.inr (Or.inl rfl))).trans (dst3 m ρ c)) ((carried7 m ρ c (Or.inr (Or.inr rfl))).trans (norm3 m ρ c))

theorem st59 : W9 m ρ c (Proc.devRef .tc main_v59) = s59 m c := by
  refine (W9_arr m ρ c 2).trans ((Act2.result (V8 m ρ) c).trans ?_)
  show rowBias relu (W8 m ρ c (Proc.devRef .tc main_v58)) (W8 m ρ c (Proc.devRef .tc main_arg4)) = _
  rw [st58, argAt8 m ρ c isArg4]

theorem st71 : W10 m ρ c (Proc.devRef .tc main_v71) = s71 m c := by
  exact pool_of (W9 m ρ c) (s59 m c) (A12 m c) (st59 m ρ c) (argAt9 m ρ c isArg12)

/-- The result buffer ends holding the network's value of the arguments. -/
theorem value : W11 m ρ c (Proc.devRef .tc main_v72)
    = model (A0 m c) (A1 m c) (A2 m c) (A3 m c) (A4 m c) (A5 m c) (A6 m c) (A7 m c) (A8 m c) (A9 m c) (A10 m c) (edges m c) (A12 m c) := by
  refine (W11_arr m ρ c 7).trans ((Head.result (V10 m ρ) c).trans ?_)
  show head (W10 m ρ c (Proc.devRef .tc main_v71)) (W10 m ρ c (Proc.devRef .tc main_arg5)) (W10 m ρ c (Proc.devRef .tc main_arg6))
      (W10 m ρ c (Proc.devRef .tc main_arg7)) (W10 m ρ c (Proc.devRef .tc main_arg8)) (W10 m ρ c (Proc.devRef .tc main_arg9))
      (W10 m ρ c (Proc.devRef .tc main_arg10)) = _
  rw [st71, argAt10 m ρ c isArg5, argAt10 m ρ c isArg6, argAt10 m ρ c isArg7, argAt10 m ρ c isArg8, argAt10 m ρ c isArg9,
    argAt10 m ρ c isArg10]
  rfl

end Cert.KernelIdeal.Fold

end
-- ==== Proof.RefValue.lean ====
/-
  The reference program's result as the same function of its arguments. Its run ends with the result buffer at the
  composition of its array operations applied to the launch contents. In that composition every general contraction
  with no accumulator is a matrix product, every pair of broadcasts of a vector added to a matrix is a bias row, the
  quotient `1 / (1 + exp (negate t))` is the logistic function and the maximum with zero is the positive part; what
  remains between them are the source, destination and weight of every message, the two aggregations and the pooling.
  So the composition is `model` of the arguments.
-/
import proofs.«112650_j56341380989304_1_alg».proof.Proof.RefRunPatched
import proofs.«112650_j56341380989304_1_alg».proof.Proof.RefGlue
import proofs.«112650_j56341380989304_1_alg».proof.Proof.Laws
import Idealize.ShloMosaic.PureOps.Ideal.Laws
import Idealize.ShloMosaic.Lib.ValueIdx

set_option maxRecDepth 16384

noncomputable section

namespace Cert.ReferenceIdeal.Hand

open Cert.ReferenceIdeal Cert.ReferenceIdeal.Facts₀ Cert.ReferenceIdeal.Facts Cert.ReferenceIdeal.Glue Cert.GcnLaws
open Idealize.ShloMosaic Idealize.ShloMosaic.TcCoe Idealize.SL.Sem Idealize.ShloMosaic.ValueIdx
open scoped BigOperators

section Term
variable {F : FTy → Type} [FloatOps F]

/-- The program's composed array operations, the thirteen arguments as variables. -/
def refTerm (x0 : F32 F S50000x128) (x1 : F32 F S128x128) (x2 : F32 F S128) (x3 : F32 F S128x128) (x4 : F32 F S128)
    (x5 : F32 F S128x64) (x6 : F32 F S64) (x7 : F32 F S64x16) (x8 : F32 F S16) (x9 : F32 F S16x1) (x10 : F32 F S1)
    (x11 : I32 F S2x800000) (x12 : I32 F S50000) : F32 F S64x1 :=
  addf (Host.dotGeneral dot_S64x16_S16x1_S64x1_1_0_0_1_n_n none (maximumf (addf (Host.dotGeneral dot_S64x64_S64x16_S64x16_1_0_0_1_n_n none (Host.divf (broadcastInDim S64x64 ![] bcast_S_S64x64 (constant S_ .f32 0x3F800000#32)) (addf (broadcastInDim S64x64 ![] bcast_S_S64x64 (constant S_ .f32 0x3F800000#32)) (Host.exp (Host.negf (addf (Host.dotGeneral dot_S64x128_S128x64_S64x64_1_0_0_1_n_n none (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 x12) (maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none (Host.divf (broadcastInDim S50000x128 ![] bcast_S_S50000x128 (constant S_ .f32 0x3F800000#32)) (addf (broadcastInDim S50000x128 ![] bcast_S_S50000x128 (constant S_ .f32 0x3F800000#32)) (Host.exp (Host.negf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 (Host.dotGeneral dot_S50000x128_S128x128_S50000x128_1_0_0_1_n_n none x0 x1) (broadcastInDim S850000x1 ![0] bcast_S850000_S850000x1_0 (select (cmpi .slt (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 x2))))))) x3) (broadcastInDim S850000x1 ![0] bcast_S850000_S850000x1_0 (select (cmpi .slt (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] x11 slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] x11 slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 x4))) (broadcastInDim S50000x128 ![] bcast_S_S50000x128 (constant S_ .f32 0x00000000#32)))) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 x12) (broadcastInDim S50000 ![] bcast_S_S50000 (constant S_ .f32 0x3F800000#32))) (broadcastInDim S64 ![] bcast_S_S64 (constant S_ .f32 0x3F800000#32)))))) x5) (broadcastInDim S64x64 ![0, 1] bcast_S1x64_S64x64_0_1 (broadcastInDim S1x64 ![1] bcast_S64_S1x64_1 x6))))))) x7) (broadcastInDim S64x16 ![0, 1] bcast_S1x16_S64x16_0_1 (broadcastInDim S1x16 ![1] bcast_S16_S1x16_1 x8))) (broadcastInDim S64x16 ![] bcast_S_S64x16 (constant S_ .f32 0x00000000#32))) x9) (broadcastInDim S64x1 ![0, 1] bcast_S1x1_S64x1_0_1 (broadcastInDim S1x1 ![1] bcast_S1_S1x1_1 x10))

/-- The run's result term is that composition at the launch contents. -/
theorem res_eq (m : (ℓ : Loc nD τ sig) → Buf (Elt F) ℓ) (c : Dev nD) :
    Cert.ReferenceIdeal.ValueP.res_main_v101 (F := F) m c
      = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v101 refTerm
  rfl
end Term

/-! ## The four general contractions are four products -/

theorem mm_conv (X : S50000x128.Idx → EReal) (W : S128x128.Idx → EReal) :
    Host.dotGeneral (F := Ideal) (φ₁ := .f32) (φ₂ := .f32) dot_S50000x128_S128x128_S50000x128_1_0_0_1_n_n none X W = mm X W := by
  funext i
  obtain ⟨r, c, rfl⟩ : ∃ (r : Fin 50000) (c : Fin 128), i = ix2 r c := ⟨i 0, i 1, eq_ix2 i⟩
  simp only [Host.dotGeneral]
  refine (Ideal.dotGeneral_apply dot_S50000x128_S128x128_S50000x128_1_0_0_1_n_n none _ X W (ix2 r c)).trans ?_
  exact mm_of_contraction dot_S50000x128_S128x128_S50000x128_1_0_0_1_n_n rfl rfl
    (fun i k => by
      unfold DotDims.lhsIdx
      rw [dif_neg (show ¬(0 : Fin S50000x128.rank) ∈ dot_S50000x128_S128x128_S50000x128_1_0_0_1_n_n.lhsBatch by decide),
        dif_pos (show (0 : Fin S50000x128.rank) ∈ dot_S50000x128_S128x128_S50000x128_1_0_0_1_n_n.lhsNonContracting by decide)]
      rfl)
    (fun i k => dot_S50000x128_S128x128_S50000x128_1_0_0_1_n_n.lhsIdx_val_of_single rfl i k)
    (fun i k => dot_S50000x128_S128x128_S50000x128_1_0_0_1_n_n.rhsIdx_val_of_single rfl i k)
    (fun i k => by
      unfold DotDims.rhsIdx
      rw [dif_neg (show ¬(1 : Fin S128x128.rank) ∈ dot_S50000x128_S128x128_S50000x128_1_0_0_1_n_n.rhsBatch by decide),
        dif_pos (show (1 : Fin S128x128.rank) ∈ dot_S50000x128_S128x128_S50000x128_1_0_0_1_n_n.rhsNonContracting by decide)]
      rfl)
    X W r c

theorem mm_first (X : S64x128.Idx → EReal) (W : S128x64.Idx → EReal) :
    Host.dotGeneral (F := Ideal) (φ₁ := .f32) (φ₂ := .f32) dot_S64x128_S128x64_S64x64_1_0_0_1_n_n none X W = mm X W := by
  funext i
  obtain ⟨r, c, rfl⟩ : ∃ (r : Fin 64) (c : Fin 64), i = ix2 r c := ⟨i 0, i 1, eq_ix2 i⟩
  simp only [Host.dotGeneral]
  refine (Ideal.dotGeneral_apply dot_S64x128_S128x64_S64x64_1_0_0_1_n_n none _ X W (ix2 r c)).trans ?_
  exact mm_of_contraction dot_S64x128_S128x64_S64x64_1_0_0_1_n_n rfl rfl
    (fun i k => by
      unfold DotDims.lhsIdx
      rw [dif_neg (show ¬(0 : Fin S64x128.rank) ∈ dot_S64x128_S128x64_S64x64_1_0_0_1_n_n.lhsBatch by decide),
        dif_pos (show (0 : Fin S64x128.rank) ∈ dot_S64x128_S128x64_S64x64_1_0_0_1_n_n.lhsNonContracting by decide)]
      rfl)
    (fun i k => dot_S64x128_S128x64_S64x64_1_0_0_1_n_n.lhsIdx_val_of_single rfl i k)
    (fun i k => dot_S64x128_S128x64_S64x64_1_0_0_1_n_n.rhsIdx_val_of_single rfl i k)
    (fun i k => by
      unfold DotDims.rhsIdx
      rw [dif_neg (show ¬(1 : Fin S128x64.rank) ∈ dot_S64x128_S128x64_S64x64_1_0_0_1_n_n.rhsBatch by decide),
        dif_pos (show (1 : Fin S128x64.rank) ∈ dot_S64x128_S128x64_S64x64_1_0_0_1_n_n.rhsNonContracting by decide)]
      rfl)
    X W r c

theorem mm_second (X : S64x64.Idx → EReal) (W : S64x16.Idx → EReal) :
    Host.dotGeneral (F := Ideal) (φ₁ := .f32) (φ₂ := .f32) dot_S64x64_S64x16_S64x16_1_0_0_1_n_n none X W = mm X W := by
  funext i
  obtain ⟨r, c, rfl⟩ : ∃ (r : Fin 64) (c : Fin 16), i = ix2 r c := ⟨i 0, i 1, eq_ix2 i⟩
  simp only [Host.dotGeneral]
  refine (Ideal.dotGeneral_apply dot_S64x64_S64x16_S64x16_1_0_0_1_n_n none _ X W (ix2 r c)).trans ?_
  exact mm_of_contraction dot_S64x64_S64x16_S64x16_1_0_0_1_n_n rfl rfl
    (fun i k => by
      unfold DotDims.lhsIdx
      rw [dif_neg (show ¬(0 : Fin S64x64.rank) ∈ dot_S64x64_S64x16_S64x16_1_0_0_1_n_n.lhsBatch by decide),
        dif_pos (show (0 : Fin S64x64.rank) ∈ dot_S64x64_S64x16_S64x16_1_0_0_1_n_n.lhsNonContracting by decide)]
      rfl)
    (fun i k => dot_S64x64_S64x16_S64x16_1_0_0_1_n_n.lhsIdx_val_of_single rfl i k)
    (fun i k => dot_S64x64_S64x16_S64x16_1_0_0_1_n_n.rhsIdx_val_of_single rfl i k)
    (fun i k => by
      unfold DotDims.rhsIdx
      rw [dif_neg (show ¬(1 : Fin S64x16.rank) ∈ dot_S64x64_S64x16_S64x16_1_0_0_1_n_n.rhsBatch by decide),
        dif_pos (show (1 : Fin S64x16.rank) ∈ dot_S64x64_S64x16_S64x16_1_0_0_1_n_n.rhsNonContracting by decide)]
      rfl)
    X W r c

theorem mm_third (X : S64x16.Idx → EReal) (W : S16x1.Idx → EReal) :
    Host.dotGeneral (F := Ideal) (φ₁ := .f32) (φ₂ := .f32) dot_S64x16_S16x1_S64x1_1_0_0_1_n_n none X W = mm X W := by
  funext i
  obtain ⟨r, c, rfl⟩ : ∃ (r : Fin 64) (c : Fin 1), i = ix2 r c := ⟨i 0, i 1, eq_ix2 i⟩
  simp only [Host.dotGeneral]
  refine (Ideal.dotGeneral_apply dot_S64x16_S16x1_S64x1_1_0_0_1_n_n none _ X W (ix2 r c)).trans ?_
  exact mm_of_contraction dot_S64x16_S16x1_S64x1_1_0_0_1_n_n rfl rfl
    (fun i k => by
      unfold DotDims.lhsIdx
      rw [dif_neg (show ¬(0 : Fin S64x16.rank) ∈ dot_S64x16_S16x1_S64x1_1_0_0_1_n_n.lhsBatch by decide),
        dif_pos (show (0 : Fin S64x16.rank) ∈ dot_S64x16_S16x1_S64x1_1_0_0_1_n_n.lhsNonContracting by decide)]
      rfl)
    (fun i k => dot_S64x16_S16x1_S64x1_1_0_0_1_n_n.lhsIdx_val_of_single rfl i k)
    (fun i k => dot_S64x16_S16x1_S64x1_1_0_0_1_n_n.rhsIdx_val_of_single rfl i k)
    (fun i k => by
      unfold DotDims.rhsIdx
      rw [dif_neg (show ¬(1 : Fin S16x1.rank) ∈ dot_S64x16_S16x1_S64x1_1_0_0_1_n_n.rhsBatch by decide),
        dif_pos (show (1 : Fin S16x1.rank) ∈ dot_S64x16_S16x1_S64x1_1_0_0_1_n_n.rhsNonContracting by decide)]
      rfl)
    X W r c

/-- The composition is the network. -/
theorem refTerm_eq (x0 : F32 Ideal S50000x128) (x1 : F32 Ideal S128x128) (x2 : F32 Ideal S128) (x3 : F32 Ideal S128x128)
    (x4 : F32 Ideal S128) (x5 : F32 Ideal S128x64) (x6 : F32 Ideal S64) (x7 : F32 Ideal S64x16) (x8 : F32 Ideal S16)
    (x9 : F32 Ideal S16x1) (x10 : F32 Ideal S1) (x11 : I32 Ideal S2x800000) (x12 : I32 Ideal S50000) :
    refTerm (F := Ideal) x0 x1 x2 x3 x4 x5 x6 x7 x8 x9 x10 x11 x12 = model x0 x1 x2 x3 x4 x5 x6 x7 x8 x9 x10 x11 x12 := by
  unfold refTerm
  rw [mm_conv, mm_conv, mm_first, mm_second, mm_third, host_sigm, host_sigm, host_relu, host_relu, host_bias]
  unfold Cert.ReferenceIdeal.Glue.model head Cert.ReferenceIdeal.Glue.pool Cert.ReferenceIdeal.Glue.agg Cert.ReferenceIdeal.Glue.normOf Cert.ReferenceIdeal.Glue.dinvOf Cert.ReferenceIdeal.Glue.srcOf Cert.ReferenceIdeal.Glue.dstOf
  rfl

end Cert.ReferenceIdeal.Hand

end
-- ==== Proof.lean ====
/-
  A two-layer graph convolution with mean pooling and a three-layer head, as a tiled kernel and as an array program:
  the two compute the same extended reals.

  Both programs build the same message list from the edge list (every edge, then a self-loop per node), weigh every
  message by the inverse square roots of its endpoints' in-degrees, and twice transform the node features by a weight
  matrix, send them along the messages, sum them at the destinations and add a bias row, with the logistic function
  after the first round and the positive part after the second; they average the node features over each graph and
  apply a three-layer head. The kernel computes the two transformations, the two bias-and-activation steps and the head
  in five tile regions (the big ones in ten blocks of 5000 rows) and leaves the index arithmetic, the gathers and the
  scatter-sums to array operations between the regions, which are the reference's own. On the extended reals a
  region's contraction into a zero accumulator is the reference's contraction, its `0 - t` is the reference's negation
  of `t`, its change of number format is the identity, and blocks of rows of a product or of an entrywise function are
  the product's or the function's rows; so each program's result is the one function `model` of the arguments. No step
  uses that the inputs are finite: the precondition is not opened.
-/
import proofs.«112650_j56341380989304_1_alg».proof.Defs
import proofs.«112650_j56341380989304_1_alg».proof.Proof.Gen.Kernel
import proofs.«112650_j56341380989304_1_alg».proof.Proof.Gen.Kernel.Skeleton
import proofs.«112650_j56341380989304_1_alg».proof.Proof.Gen.Kernel.Launch
import proofs.«112650_j56341380989304_1_alg».proof.Proof.Gen.Kernel.Points
import proofs.«112650_j56341380989304_1_alg».proof.Proof.Gen.Kernel.Frame
import proofs.«112650_j56341380989304_1_alg».proof.Proof.Gen.KernelIdeal
import proofs.«112650_j56341380989304_1_alg».proof.Proof.Gen.KernelIdeal.Skeleton
import proofs.«112650_j56341380989304_1_alg».proof.Proof.Gen.KernelIdeal.Launch
import proofs.«112650_j56341380989304_1_alg».proof.Proof.Gen.KernelIdeal.Points
import proofs.«112650_j56341380989304_1_alg».proof.Proof.Gen.KernelIdeal.Frame
import proofs.«112650_j56341380989304_1_alg».proof.Proof.Gen.ReferenceIdeal
import proofs.«112650_j56341380989304_1_alg».proof.Proof.RefRunPatched
import proofs.«112650_j56341380989304_1_alg».proof.Proof.Gen.Pre_finite_inputs
import proofs.«112650_j56341380989304_1_alg».proof.Proof.Glue
import proofs.«112650_j56341380989304_1_alg».proof.Proof.RefGlue
import proofs.«112650_j56341380989304_1_alg».proof.Proof.KernelRun
import proofs.«112650_j56341380989304_1_alg».proof.Proof.Fold
import proofs.«112650_j56341380989304_1_alg».proof.Proof.RefValue
import Idealize.ShloMosaic.Adequacy
import Idealize.ShloMosaic.Init

set_option maxRecDepth 16384

noncomputable section

namespace Cert.Proof

open Idealize.ShloMosaic Idealize.SL.Sem

/-! ## The array operations between the regions are the same functions in both programs -/

theorem src_eq (e : Cert.KernelIdeal.Glue.I32 Ideal Cert.KernelIdeal.S2x800000) : Cert.KernelIdeal.Glue.srcOf (F := Ideal) e = Cert.ReferenceIdeal.Glue.srcOf (F := Ideal) e := by
  unfold Cert.KernelIdeal.Glue.srcOf Cert.ReferenceIdeal.Glue.srcOf; rfl
theorem dst_eq (e : Cert.KernelIdeal.Glue.I32 Ideal Cert.KernelIdeal.S2x800000) : Cert.KernelIdeal.Glue.dstOf (F := Ideal) e = Cert.ReferenceIdeal.Glue.dstOf (F := Ideal) e := by
  unfold Cert.KernelIdeal.Glue.dstOf Cert.ReferenceIdeal.Glue.dstOf; rfl
theorem dinv_eq (e : Cert.KernelIdeal.Glue.I32 Ideal Cert.KernelIdeal.S2x800000) : Cert.KernelIdeal.Glue.dinvOf (F := Ideal) e = Cert.ReferenceIdeal.Glue.dinvOf (F := Ideal) e := by
  unfold Cert.KernelIdeal.Glue.dinvOf Cert.ReferenceIdeal.Glue.dinvOf; rw [dst_eq]; rfl
theorem norm_eq (e : Cert.KernelIdeal.Glue.I32 Ideal Cert.KernelIdeal.S2x800000) : Cert.KernelIdeal.Glue.normOf (F := Ideal) e = Cert.ReferenceIdeal.Glue.normOf (F := Ideal) e := by
  unfold Cert.KernelIdeal.Glue.normOf Cert.ReferenceIdeal.Glue.normOf; rw [dinv_eq, src_eq, dst_eq]; rfl
theorem agg_eq (xw : Cert.KernelIdeal.Glue.F32 Ideal Cert.KernelIdeal.S50000x128) (e : Cert.KernelIdeal.Glue.I32 Ideal Cert.KernelIdeal.S2x800000) :
    Cert.KernelIdeal.Glue.agg (F := Ideal) xw e = Cert.ReferenceIdeal.Glue.agg (F := Ideal) xw e := by
  unfold Cert.KernelIdeal.Glue.agg Cert.ReferenceIdeal.Glue.agg; rw [norm_eq, src_eq, dst_eq]; rfl
theorem pool_eq (h : Cert.KernelIdeal.Glue.F32 Ideal Cert.KernelIdeal.S50000x128) (b : Cert.KernelIdeal.Glue.I32 Ideal Cert.KernelIdeal.S50000) :
    Cert.KernelIdeal.Glue.pool (F := Ideal) h b = Cert.ReferenceIdeal.Glue.pool (F := Ideal) h b := by
  unfold Cert.KernelIdeal.Glue.pool Cert.ReferenceIdeal.Glue.pool; rfl
theorem model_eq (x0 : Cert.KernelIdeal.Glue.F32 Ideal Cert.KernelIdeal.S50000x128) (x1 : Cert.KernelIdeal.Glue.F32 Ideal Cert.KernelIdeal.S128x128)
    (x2 : Cert.KernelIdeal.Glue.F32 Ideal Cert.KernelIdeal.S128) (x3 : Cert.KernelIdeal.Glue.F32 Ideal Cert.KernelIdeal.S128x128) (x4 : Cert.KernelIdeal.Glue.F32 Ideal Cert.KernelIdeal.S128)
    (x5 : Cert.KernelIdeal.Glue.F32 Ideal Cert.KernelIdeal.S128x64) (x6 : Cert.KernelIdeal.Glue.F32 Ideal Cert.KernelIdeal.S64) (x7 : Cert.KernelIdeal.Glue.F32 Ideal Cert.KernelIdeal.S64x16)
    (x8 : Cert.KernelIdeal.Glue.F32 Ideal Cert.KernelIdeal.S16) (x9 : Cert.KernelIdeal.Glue.F32 Ideal Cert.KernelIdeal.S16x1) (x10 : Cert.KernelIdeal.Glue.F32 Ideal Cert.KernelIdeal.S1)
    (x11 : Cert.KernelIdeal.Glue.I32 Ideal Cert.KernelIdeal.S2x800000) (x12 : Cert.KernelIdeal.Glue.I32 Ideal Cert.KernelIdeal.S50000) :
    Cert.KernelIdeal.Glue.model x0 x1 x2 x3 x4 x5 x6 x7 x8 x9 x10 x11 x12 = Cert.ReferenceIdeal.Glue.model x0 x1 x2 x3 x4 x5 x6 x7 x8 x9 x10 x11 x12 := by
  unfold Cert.KernelIdeal.Glue.model Cert.ReferenceIdeal.Glue.model
  simp only [agg_eq, pool_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the kernel's own text read on the extended reals. -/
theorem preserves : Cert.preserves_Kernel_KernelIdeal := trivial

/-- Both programs end with the network's value of the (common) arguments in their result buffers. -/
theorem algebraic : Cert.algebraic_KernelIdeal_ReferenceIdeal := by
  intro m ρ m' ρ' _ hagree
  refine ⟨fun c => Cert.KernelIdeal.Glue.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Fold.value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Hand.res_eq m' c).trans ((Cert.ReferenceIdeal.Hand.refTerm_eq _ _ _ _ _ _ _ _ _ _ _ _ _).trans ?_)
    obtain ⟨h0, h1, h2, h3, h4, h5, h6, h7, h8, h9, h10, h11, h12⟩ := hagree c
    rw [h0, h1, h2, h3, h4, h5, h6, h7, h8, h9, h10, h11, h12]
    exact (model_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
